-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S256 .f32) (main_arg5 : FVec F S800000 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S800000 .f32 := Host.absf main_arg5
  let main_cst_8 : FVec F S_ .f32 := constant S_ .f32 0x7F800000#32
  let main_v25 : FVec F S800000 .f32 := broadcastInDim S800000 ![] bcast_S_S800000 main_cst_8
  let main_v26 : IVec S800000 1 := cmpf .olt main_v24 main_v25
  let main_c_9 : IVec S_ 1 := constantI S_ 1 1#1
  let main_v27 : IVec S_ 1 := (fun x v => Host.reduce IntOp.andi x v reducesTo_S800000_S_d0 h_S_) main_v26 main_c_9
  let main_v28 : IVec S_ 1 := andi main_v23 main_v27
  main_v28

def fn {F : FTy → Type} [FloatOps F] (main_arg0 : FVec F S50000x128 .f32) (main_arg1 : FVec F S128x256 .f32) (main_arg2 : FVec F S256 .f32) (main_arg3 : FVec F S256 .f32) (main_arg4 : FVec F S256 .f32) (main_arg5 : FVec F S800000 .f32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S50000x128 : Shape := ⟨2, ![50000, 128]⟩
abbrev S128x256 : Shape := ⟨2, ![128, 256]⟩
abbrev S256 : Shape := ⟨1, ![256]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩

abbrev nBuf : Space → Nat
  | .hbm => 47
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S800000, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S1x256, .f32⟩
  | .hbm, ⟨25, _⟩ => ⟨S50000x256, .f32⟩
  | .hbm, ⟨26, _⟩ => ⟨S1x256, .f32⟩
  | .hbm, ⟨27, _⟩ => ⟨S1x256, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S1x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  shapeCasts_S1x256_S256 : S1x256.ShapeCasts S256
  bcast_S_S256 : S_.BroadcastsInDim S256 (![] : Fin 0 → Fin S256.rank)
  shapeCasts_S2000x256_S2000x256 : S2000x256.ShapeCasts S2000x256
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S1x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_2) S1x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S800000, .f32⟩
  | .hbm, ⟨6, _⟩ => ⟨S800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S_, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S_, .f32⟩
  | .hbm, ⟨41, _⟩ => ⟨S256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S1x256, .f32⟩
  | .hbm, ⟨56, _⟩ => ⟨S50000x256, .f32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.KernelRun.lean ====
/-
  The idealized kernel's run with its result array named.

  @main is four segments: a stretch of host operations, the first pipelined region (matrix product, rectifier and
  the column statistics), a second stretch of host operations (mean, variance, reciprocal standard deviation) and
  the second pipelined region (the normalisation).  Every weakly fair execution runs through the four segments and
  ends with every unscoped buffer of the core at the contents the last segment leaves; in particular the result
  array ends at what the second region's write-backs leave of it, and the eight argument arrays end as launched.
-/
import proofs.«123701_j34333968564745_1_alg».proof.Proof.Gen.KernelIdeal.Frame

set_option maxRecDepth 16384

noncomputable section

namespace Cert.KernelIdeal.ValueLeg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the contents the
    last segment leaves of it, and each argument array ends as launched. -/
theorem run_named : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.ValueLeg

end
-- ==== Proof.KernelBodies.lean ====
/-
  What the first region's body leaves in its three output blocks, as values.

  The body has two control cases.  At the first grid point it clears the two accumulator rows, and at every
  point it then (1) stores the rectified product block  relu(a · w + b)  into the first output block, (2) adds
  that block's column sums to the first accumulator row, (3) adds the column sums of its squares to the second.
  So after a point the first output block holds the rectified product of the point's row block, and each
  accumulator row holds "row before + this block's column sums", the row before being the zero row at the first
  point.  Each statement below reads one output block's stores back as one payload of the body's loads.
-/
import proofs.«123701_j34333968564745_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.ValueLeg

open Cert.KernelIdeal Cert.KernelIdeal.Gen

variable {F : FTy → Type} [FloatOps F]

theorem hz : (![0, 0] : Fin 2 → Nat) = fun _ => 0 := funext fun a => by fin_cases a <;> rfl

/-! ## The first grid point: the accumulators start from the zero row -/

/-- The rectified product block, first point. -/
theorem first_block (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : cond0_0 i) (x0 : Vec F S2000x128 .f32) (x1 : Vec F S128x256 .f32) (x2 : Vec F S1x256 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readAt_eq_ld, h1.read_unread, h2.read_unread, h3.read_unread, View.ld_unit_zero (S := S2000x128) hz, View.ld_unit_zero (S := S128x256) hz, View.ld_unit_zero (S := S1x256) hz]

/-- The column sums, first point: the zero row plus the block's column sums. -/
theorem first_sums (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : cond0_0 i) (x0 : Vec F S2000x128 .f32) (x1 : Vec F S128x256 .f32) (x2 : Vec F S1x256 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, View.ld_unit_zero (S := S2000x128) hz, View.ld_unit_zero (S := S128x256) hz, View.ld_unit_zero (S := S1x256) hz]

/-- The column sums of squares, first point: the zero row plus the squared block's column sums. -/
theorem first_sqsums (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : cond0_0 i) (x0 : Vec F S2000x128 .f32) (x1 : Vec F S128x256 .f32) (x2 : Vec F S1x256 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, View.ld_unit_zero (S := S2000x128) hz, View.ld_unit_zero (S := S128x256) hz, View.ld_unit_zero (S := S1x256) hz]

/-! ## Every later grid point: the accumulators continue from what the point before left -/

/-- The rectified product block, a later point. -/
theorem later_block (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : ¬cond0_0 i) (x0 : Vec F S2000x128 .f32) (x1 : Vec F S128x256 .f32) (x2 : Vec F S1x256 .f32) (xo4 xo5 : Vec F S1x256 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread, View.ld_unit_zero (S := S2000x128) hz, View.ld_unit_zero (S := S128x256) hz, View.ld_unit_zero (S := S1x256) hz]

/-- The column sums, a later point: the row before plus the block's column sums. -/
theorem later_sums (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : ¬cond0_0 i) (x0 : Vec F S2000x128 .f32) (x1 : Vec F S128x256 .f32) (x2 : Vec F S1x256 .f32) (xo4 xo5 : Vec F S1x256 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread, View.ld_unit_zero (S := S2000x128) hz, View.ld_unit_zero (S := S128x256) hz, View.ld_unit_zero (S := S1x256) hz]

/-- The column sums of squares, a later point: the row before plus the squared block's column sums. -/
theorem later_sqsums (c : Dev nD) (i : grid0.Coords) (a1 : Memref sig .tc .vmem S2000x128 .f32) (h1 : a1.IsWhole) (a2 : Memref sig .tc .vmem S128x256 .f32) (h2 : a2.IsWhole) (a3 : Memref sig .tc .vmem S1x256 .f32) (h3 : a3.IsWhole) (a4 : Memref sig .tc .vmem S2000x256 .f32) (h4 : a4.IsWhole) (a5 : Memref sig .tc .vmem S1x256 .f32) (h5 : a5.IsWhole) (a6 : Memref sig .tc .vmem S1x256 .f32) (h6 : a6.IsWhole) (hc : ¬cond0_0 i) (x0 : Vec F S2000x128 .f32) (x1 : Vec F S128x256 .f32) (x2 : Vec F S1x256 .f32) (xo4 xo5 : Vec F S1x256 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  sl_unfold_words
  rw [View.canon_unit_zero hz]
  simp only [View.readAt_eq_ld, h1.read_unread, h2.read_unread, h3.read_unread, h5.read_unread, h6.read_unread, View.ld_unit_zero (S := S2000x128) hz, View.ld_unit_zero (S := S128x256) hz, View.ld_unit_zero (S := S1x256) hz]

end Cert.KernelIdeal.ValueLeg

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibRowsSum.lean ====
/-
  GENERAL LEMMA: a rank-2 array of extended reals summed along its FIRST axis — what `sum(x, axis=0)` becomes in a
  vector program — read at an index given by its coordinate.
  • `multiReduction_add_axis0_apply`: the sum over the rows of an `[a, b]` array from the zero word, at `j`, is the
    sum of column `j`.
-/
import Idealize.ShloMosaic.Lib.ValueIdx
import Idealize.ShloMosaic.PureOps.Ideal.Laws

noncomputable section

open scoped BigOperators

namespace Idealize.ShloMosaic.ValueIdx

open Idealize.ShloMosaic

/-- The sum over the rows of an `[a, b]` array of extended reals, accumulated from the zero word: at `j` it is the
    sum of column `j`. -/
theorem multiReduction_add_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.KernelEntries.lean ====
/-
  The bodies' payloads read at one entry, on the extended reals.

  * The rectified product block at (p, q):  max (∑ₖ a(p,k) · w(k,q) + b(0,q), 0)  — the change of float format
    before the product is the identity, the product into the zero accumulator is the plain sum over k, and the
    bias row is broadcast over the rows.
  * One accumulation step of the column sums at (0, q):  the row before plus the sum over the block's 2000 rows of
    the rectified product in column q;  for the sums of squares the same with each entry squared.
  * The normalisation block at (p, q):  (h(p,q) − mean(0,q)) · istd(0,q) · γ(0,q) + β(0,q), each of the four rows
    broadcast over the block's rows.
-/
import proofs.«123701_j34333968564745_1_alg».proof.Proof.Gen.KernelIdeal.Skeleton
import proofs.«123701_j34333968564745_1_alg».proof.Proof.LibPlainDot
import proofs.«123701_j34333968564745_1_alg».proof.Proof.LibRowsSum
import Idealize.ShloMosaic.Lib.ValueLayout
import Idealize.ShloMosaic.Lib.ValueIdx
import Idealize.ShloMosaic.PureOps.Ideal.Laws

noncomputable section

open Idealize.ShloMosaic Idealize.ShloMosaic.ValueIdx

namespace Cert.KernelIdeal.ValueLeg

open Cert.KernelIdeal Cert.KernelIdeal.Gen

/-- The rectified product block at an entry. -/
theorem relu_block_apply (v3 : Vec Ideal S2000x128 .f32) (v6 : Vec Ideal S128x256 .f32) (v9 : Vec Ideal S1x256 .f32)
    (p : Fin 2000) (q : Fin 256) :
    k0_pay3 (F := Ideal) v3 v6 v9 (ix2 p q)
      = max ((∑ k : Fin 128, v3 (ix2 p k) * v6 (ix2 k q)) + v9 (ix2 (0 : Fin 1) q)) (Ideal.ofBits .f32 0x00000000#32) := by
  unfold k0_pay3
  simp only [shapeCast_self]
  refine congrArg₂ max (congrArg₂ (· + ·) ?_ ?_) rfl
  · exact PlainDot.matmul_zero_apply dot_S2000x128_S128x256_S2000x256_1_0_0_1_n_n rfl none _ _ (ix2 p q)
  · exact broadcastTo_1b_ab_apply _ _ p q

/-- One accumulation step of the column sums, at an entry of the row. -/
theorem sums_step_apply (v3 : Vec Ideal S2000x128 .f32) (v6 : Vec Ideal S128x256 .f32) (v9 : Vec Ideal S1x256 .f32)
    (v17 : Vec Ideal S1x256 .f32) (u : Fin 1) (q : Fin 256) :
    k0_pay4 (F := Ideal) v3 v6 v9 v17 (ix2 u q)
      = v17 (ix2 u q) + ∑ p : Fin 2000, k0_pay3 (F := Ideal) v3 v6 v9 (ix2 p q) := by
  unfold k0_pay4
  simp only [shapeCast_self]
  refine congrArg₂ (· + ·) rfl ?_
  refine (shapeCast_a_1a_apply _ _ u q).trans ?_
  exact multiReduction_add_axis0_apply _ _ _ _ q

/-- One accumulation step of the column sums of squares, at an entry of the row. -/
theorem sqsums_step_apply (v3 : Vec Ideal S2000x128 .f32) (v6 : Vec Ideal S128x256 .f32) (v9 : Vec Ideal S1x256 .f32)
    (v23 : Vec Ideal S1x256 .f32) (u : Fin 1) (q : Fin 256) :
    k0_pay5 (F := Ideal) v3 v6 v9 v23 (ix2 u q)
      = v23 (ix2 u q) + ∑ p : Fin 2000, k0_pay3 (F := Ideal) v3 v6 v9 (ix2 p q) * k0_pay3 (F := Ideal) v3 v6 v9 (ix2 p q) := by
  unfold k0_pay5
  simp only [shapeCast_self]
  refine congrArg₂ (· + ·) rfl ?_
  refine (shapeCast_a_1a_apply _ _ u q).trans ?_
  exact multiReduction_add_axis0_apply _ _ _ _ q

/-- The zero row the accumulators start from, at an entry. -/
theorem zero_row_apply (j : S1x256.Idx) : k0_pay1 (F := Ideal) j = 0 := by
  unfold k0_pay1
  exact Ideal.ofBits_zero_f32

theorem zero_row_apply' (j : S1x256.Idx) : k0_pay2 (F := Ideal) j = 0 := by
  unfold k0_pay2
  exact Ideal.ofBits_zero_f32

/-- The normalisation block at an entry. -/
theorem normalise_apply (v0 : Vec Ideal S2000x256 .f32) (v2 v6 v10 v14 : Vec Ideal S1x256 .f32) (p : Fin 2000) (q : Fin 256) :
    k1_pay1 (F := Ideal) v0 v2 v6 v10 v14 (ix2 p q)
      = (v0 (ix2 p q) - v2 (ix2 (0 : Fin 1) q)) * v6 (ix2 (0 : Fin 1) q) * v10 (ix2 (0 : Fin 1) q) + v14 (ix2 (0 : Fin 1) q) := by
  unfold k1_pay1
  simp only [shapeCast_self]
  refine congrArg₂ (· + ·) (congrArg₂ (· * ·) (congrArg₂ (· * ·) (congrArg₂ (· - ·) rfl ?_) ?_) ?_) ?_
  all_goals exact broadcastTo_1b_ab_apply _ _ p q

end Cert.KernelIdeal.ValueLeg

end
-- ==== Proof.LibChunkedSum.lean ====
import Mathlib.Algebra.BigOperators.Fin
import Mathlib.Algebra.BigOperators.Intervals

/-!
# A sum over an axis cut in equal chunks

An axis of `n * b` terms is cut in `n` consecutive chunks of width `b`.  In an additive
commutative monoid the sum of the chunk sums is the sum over the whole axis, and a
running total that starts from "first chunk plus a constant" and then adds one chunk at a
time is, at every stage, "sum of the chunks so far, plus the constant".  Only associativity
and commutativity of `+` are used.
-/

namespace Cert.Lib.ChunkedSum

open Finset

variable {M : Type*} [AddCommMonoid M]

/-- Chunk `p` of width `b` of the sequence `f`: the sum of the `b` consecutive terms
`f (b * p), f (b * p + 1), …, f (b * p + (b - 1))`. -/
def chunk (b : ℕ) (f : ℕ → M) (p : ℕ) : M := ∑ q : Fin b, f (b * p + q.val)

/-- A chunk written as a sum over the initial segment `{0, …, b - 1}` of the naturals. -/
theorem chunk_eq_sum_range (b : ℕ) (f : ℕ → M) (p : ℕ) :
    chunk b f p = ∑ q ∈ range b, f (b * p + q) :=
  Fin.sum_univ_eq_sum_range (fun q => f (b * p + q)) b

/-- The first `n` chunks of width `b` tile the first `n * b` terms: the sum of their sums is
the sum of `f 0, …, f (n * b - 1)`, written over the naturals. -/
theorem sum_chunks_range (n b : ℕ) (f : ℕ → M) :
    ∑ p ∈ range n, chunk b f p = ∑ j ∈ range (n * b), f j := by
  induction n with
  | zero => simp
  | succ n ih =>
    rw [sum_range_succ, ih, chunk_eq_sum_range, Nat.succ_mul, sum_range_add, Nat.mul_comm b n]

/-- The chunks tile the axis: the sum over `p < n` of chunk `p` is the sum of all
`n * b` terms. -/
theorem sum_chunks (n b : ℕ) (f : ℕ → M) :
    ∑ p ∈ Finset.range n, chunk b f p = ∑ j : Fin (n * b), f j.val := by
  rw [sum_chunks_range, Fin.sum_univ_eq_sum_range (fun j => f j) (n * b)]

/-- The first stage of the running total: chunk `0` plus the constant `β` is the sum of the
first one chunk, plus `β`. -/
theorem acc_first (b : ℕ) (f : ℕ → M) (β : M) :
    chunk b f 0 + β = (∑ p ∈ Finset.range 1, chunk b f p) + β := by
  rw [sum_range_one]

/-- One more stage of the running total: adding chunk `k + 1` to "the first `k + 1` chunks
plus `β`" gives "the first `k + 2` chunks plus `β`". -/
theorem acc_step (b k : ℕ) (f : ℕ → M) (β : M) :
    ((∑ p ∈ Finset.range (k + 1), chunk b f p) + β) + chunk b f (k + 1)
      = (∑ p ∈ Finset.range (k + 2), chunk b f p) + β := by
  rw [add_right_comm, ← sum_range_succ]

/-- Four chunks of width `256` tile an axis of `1024` terms. -/
theorem sum_chunks_1024 (f : ℕ → M) :
    ∑ p ∈ Finset.range 4, chunk 256 f p = ∑ j : Fin 1024, f j.val :=
  sum_chunks 4 256 f

end Cert.Lib.ChunkedSum
-- ==== Proof.Chunks.lean ====
/-
  Twenty-five blocks of two thousand rows tile fifty thousand rows: a quantity summed block by block, the block
  sums added up in block order, is the quantity summed over all rows.  Only associativity and commutativity of +.
-/
import proofs.«123701_j34333968564745_1_alg».proof.Proof.LibChunkedSum

open scoped BigOperators

namespace Cert.BatchStat

open Cert.Lib.ChunkedSum

variable {M : Type*} [AddCommMonoid M]

/-- A row-indexed quantity continued by zero past the last row. -/
def rowSeq (g : Fin 50000 → M) : ℕ → M := fun j => if h : j < 50000 then g ⟨j, h⟩ else 0

theorem rowSeq_of_lt (g : Fin 50000 → M) (j : ℕ) (h : j < 50000) : rowSeq g j = g ⟨j, h⟩ := dif_pos h

/-- The block sums of the first 25 blocks of 2000 rows add up to the sum over all 50000 rows. -/
theorem sum_blocks_eq_sum_rows (g : Fin 50000 → M) :
    ∑ t ∈ Finset.range 25, ∑ p : Fin 2000, rowSeq g (2000 * t + p.val) = ∑ r : Fin 50000, g r := by
  have h := sum_chunks 25 2000 (rowSeq g)
  unfold chunk at h
  rw [h]
  show ∑ j : Fin 50000, rowSeq g j.val = _
  exact Finset.sum_congr rfl fun r _ => rowSeq_of_lt g r.val r.isLt

end Cert.BatchStat
-- ==== Proof.KernelStats.lean ====
/-
  The first region's three result arrays as functions of the arrays the region finds.

  Write A for the aggregated features [50000, 128], W for the weights [128, 256] and b for the bias row [1, 256]
  as the region finds them, and  h(r, q) = max (∑ₖ A(r,k) · W(k,q) + b(0,q), 0)  for the rectified product.
  Grid point t works on rows 2000 t … 2000 t + 1999.  After the run
    * the first result array holds h: every point writes back its own row block, and the 25 blocks tile the rows;
    * the second holds, in column q, the block sums of column q of h added up in point order from the zero row,
      which is the sum of the whole column (twenty-five blocks of two thousand rows tile the fifty thousand);
    * the third holds the same with every entry squared.
  The two accumulator rows are written back once, after the last point.
-/
import proofs.«123701_j34333968564745_1_alg».proof.Proof.Gen.KernelIdeal.Frame
import proofs.«123701_j34333968564745_1_alg».proof.Proof.KernelBodies
import proofs.«123701_j34333968564745_1_alg».proof.Proof.KernelEntries
import proofs.«123701_j34333968564745_1_alg».proof.Proof.Chunks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.ValueLeg

open Cert.KernelIdeal Cert.KernelIdeal.Gen Cert.BatchStat

/-! ## The accumulators after each point, at any float instance -/

section AnyFloat

variable {F : FTy → Type} [FloatOps F]
variable (V : (c : Dev nD) → (b : Ref sig .tc) → Buf (Elt F) ((c : Thread nD τ).loc b))

/-- The column-sum row after point `n`: the zero row plus block 0's sums, then one block's sums more per point. -/
def sumsAt (c : Dev nD) : (n : ℕ) → n < cfg0.N → Vec F S1x256 .f32
  | 0, h => k0_pay4 (iblk0 V c 0 ⟨0, h⟩) (iblk0 V c 1 ⟨0, h⟩) (iblk0 V c 2 ⟨0, h⟩) (k0_pay1 (F := F))
  | n + 1, h => k0_pay4 (iblk0 V c 0 ⟨n + 1, h⟩) (iblk0 V c 1 ⟨n + 1, h⟩) (iblk0 V c 2 ⟨n + 1, h⟩) (sumsAt c n (Nat.lt_of_succ_lt h))

/-- The row of column sums of squares after point `n`. -/
def sqsumsAt (c : Dev nD) : (n : ℕ) → n < cfg0.N → Vec F S1x256 .f32
  | 0, h => k0_pay5 (iblk0 V c 0 ⟨0, h⟩) (iblk0 V c 1 ⟨0, h⟩) (iblk0 V c 2 ⟨0, h⟩) (k0_pay2 (F := F))
  | n + 1, h => k0_pay5 (iblk0 V c 0 ⟨n + 1, h⟩) (iblk0 V c 1 ⟨n + 1, h⟩) (iblk0 V c 2 ⟨n + 1, h⟩) (sqsumsAt c n (Nat.lt_of_succ_lt h))

/-- What the three output blocks hold after point `n`: the point's rectified product block and the two running rows. -/
theorem outsAt_eq (c : Dev nD) : ∀ (n : ℕ) (h : n < cfg0.N),
    outsAt0 V c n h = (k0_pay3 (iblk0 V c 0 ⟨n, h⟩) (iblk0 V c 1 ⟨n, h⟩) (iblk0 V c 2 ⟨n, h⟩), sumsAt V c n h, sqsumsAt V c n h)
  | 0, h => by
    rw [outsAt0_A V c ⟨0, h⟩ rfl, first_block, first_sums, first_sqsums]
    rfl
  | n + 1, h => by
    have hN : cfg0.N = 25 := N_0
    have hB : ¬(⟨n + 1, h⟩ : Fin cfg0.N).val % 25 = 0 := by dsimp only; omega
    rw [outsAt0_B V c ⟨n + 1, h⟩ hB, later_block, later_sums, later_sqsums]
    show (_, k0_pay4 _ _ _ (outsAt0 V c n _).2.1, k0_pay5 _ _ _ (outsAt0 V c n _).2.2) = _
    rw [outsAt_eq c n]
    rfl

/-- The last grid point. -/
def tlast : Fin cfg0.N := ⟨24, lt_of_lt_of_eq (by decide) N_0.symm⟩

/-- The one write-back of the column-sum row, after the last point, writes the running row (its block is the array). -/
theorem flushed_sums (c : Dev nD) (t : Fin cfg0.N) (hf : (cfg0.win 4).flush t = true) :
    (dat0 V c).flushed 4 t = ((cfg0.win 4).blk t).view.read (Elt F) (sumsAt V c 24 tlast.isLt) := by
  have hN : cfg0.N = 25 := N_0
  have h24 : t.val = 24 := by have := (flush0_4 t).mp hf; have := t.isLt; omega
  obtain rfl : t = tlast := Fin.ext h24
  show (cfg0.win 4).cut (grid0.coords tlast) ((dat0 V c).after 4 tlast) = _
  rw [after0_4, outsAt_eq]
  have hz' : (fun a => win0_4.index tlast a * main_v14_1.ty.shape.size a) = fun _ => 0 := funext fun a => by fin_cases a <;> decide
  exact (Memref.read_access_unit_zero (Elt F) main_v14_1 hz' (fun a => by rw [congrFun hz' a]; simp) (sumsAt V c 24 tlast.isLt)).symm

theorem flushed_sqsums (c : Dev nD) (t : Fin cfg0.N) (hf : (cfg0.win 5).flush t = true) :
    (dat0 V c).flushed 5 t = ((cfg0.win 5).blk t).view.read (Elt F) (sqsumsAt V c 24 tlast.isLt) := by
  have hN : cfg0.N = 25 := N_0
  have h24 : t.val = 24 := by have := (flush0_5 t).mp hf; have := t.isLt; omega
  obtain rfl : t = tlast := Fin.ext h24
  show (cfg0.win 5).cut (grid0.coords tlast) ((dat0 V c).after 5 tlast) = _
  rw [after0_5, outsAt_eq]
  have hz' : (fun a => win0_5.index tlast a * main_v14_2.ty.shape.size a) = fun _ => 0 := funext fun a => by fin_cases a <;> decide
  exact (Memref.read_access_unit_zero (Elt F) main_v14_2 hz' (fun a => by rw [congrFun hz' a]; simp) (sqsumsAt V c 24 tlast.isLt)).symm

/-- The column-sum array ends at the running row after the last point. -/
theorem final_sums (c : Dev nD) : (dat0 V c).arrAt 4 cfg0.N = sumsAt V c 24 tlast.isLt :=
  (dat0 V c).arrAt_eq_of_cover 4 (sumsAt V c 24 tlast.isLt) (flushed_sums V c) fun i =>
    ⟨tlast, (flush0_4 tlast).mpr rfl, by
      show i ∈ ((View.whole main_v14_1).slice (win0_4.rect tlast)).set
      rw [View.set_slice_whole, Rect.mem_set_unit]
      intro a
      have h0 : (i 0 : Nat) < 1 := (i 0).isLt
      have h1 : (i 1 : Nat) < 256 := (i 1).isLt
      match a with
      | ⟨0, _⟩ => show win0_4.index tlast 0 * win0_4.size 0 ≤ (i 0 : Nat) ∧ (i 0 : Nat) < win0_4.index tlast 0 * win0_4.size 0 + win0_4.xsize (grid0.coords tlast) 0
                  rw [show win0_4.index tlast 0 * win0_4.size 0 = 0 from by decide +kernel, show win0_4.xsize (grid0.coords tlast) 0 = 1 from by decide +kernel]; omega
      | ⟨1, _⟩ => show win0_4.index tlast 1 * win0_4.size 1 ≤ (i 1 : Nat) ∧ (i 1 : Nat) < win0_4.index tlast 1 * win0_4.size 1 + win0_4.xsize (grid0.coords tlast) 1
                  rw [show win0_4.index tlast 1 * win0_4.size 1 = 0 from by decide +kernel, show win0_4.xsize (grid0.coords tlast) 1 = 256 from by decide +kernel]; omega⟩

theorem final_sqsums (c : Dev nD) : (dat0 V c).arrAt 5 cfg0.N = sqsumsAt V c 24 tlast.isLt :=
  (dat0 V c).arrAt_eq_of_cover 5 (sqsumsAt V c 24 tlast.isLt) (flushed_sqsums V c) fun i =>
    ⟨tlast, (flush0_5 tlast).mpr rfl, by
      show i ∈ ((View.whole main_v14_2).slice (win0_5.rect tlast)).set
      rw [View.set_slice_whole, Rect.mem_set_unit]
      intro a
      have h0 : (i 0 : Nat) < 1 := (i 0).isLt
      have h1 : (i 1 : Nat) < 256 := (i 1).isLt
      match a with
      | ⟨0, _⟩ => show win0_5.index tlast 0 * win0_5.size 0 ≤ (i 0 : Nat) ∧ (i 0 : Nat) < win0_5.index tlast 0 * win0_5.size 0 + win0_5.xsize (grid0.coords tlast) 0
                  rw [show win0_5.index tlast 0 * win0_5.size 0 = 0 from by decide +kernel, show win0_5.xsize (grid0.coords tlast) 0 = 1 from by decide +kernel]; omega
      | ⟨1, _⟩ => show win0_5.index tlast 1 * win0_5.size 1 ≤ (i 1 : Nat) ∧ (i 1 : Nat) < win0_5.index tlast 1 * win0_5.size 1 + win0_5.xsize (grid0.coords tlast) 1
                  rw [show win0_5.index tlast 1 * win0_5.size 1 = 0 from by decide +kernel, show win0_5.xsize (grid0.coords tlast) 1 = 256 from by decide +kernel]; omega⟩

end AnyFloat

/-! ## On the extended reals: entries -/

/-- Entry (r, q) of the rectified product of whole arrays. -/
def reluEntry (A : S50000x128.Idx → EReal) (W : S128x256.Idx → EReal) (b2 : S1x256.Idx → EReal) (r : Fin 50000) (q : Fin 256) : EReal :=
  max ((∑ k : Fin 128, A (ix2 r k) * W (ix2 k q)) + b2 (ix2 (0 : Fin 1) q)) (Ideal.ofBits .f32 0x00000000#32)

variable (V : (c : Dev nD) → (b : Ref sig .tc) → Buf (Elt Ideal) ((c : Thread nD τ).loc b))

/-- The rectified product as an array over the arrays the region finds. -/
def reluArr (c : Dev nD) : S50000x256.Idx → EReal :=
  fun i => reluEntry (V c main_v12) (V c main_arg1) (V c main_v13) (i 0) (i 1)

/-- The printed index maps over the grid: the row-blocked windows sit at block row `t`, the others at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the feature block at point `t` is row `2000 t + p` of the array. -/
theorem rows_read (c : Dev nD) (t : Fin cfg0.N) (p : Fin 2000) (k : Fin 128) (hb : 2000 * t.val + p.val < 50000) :
    (iblk0 V c 0 t : Vec Ideal S2000x128 .f32) (ix2 p k) = (V c main_v12 : S50000x128.Idx → EReal) (ix2 ⟨2000 * t.val + p.val, hb⟩ k) := by
  unfold iblk0
  rw [View.read_apply]
  show V c main_v12 _ = V c main_v12 _
  refine congrArg (V c main_v12) (funext fun a => Fin.ext ?_)
  match a with
  | ⟨0, _⟩ => show win0_0.index t (0 : Fin 2) * 2000 + 1 * p.val = 2000 * t.val + p.val; rw [(idx_facts0 t).1]; omega
  | ⟨1, _⟩ => show win0_0.index t (1 : Fin 2) * 128 + 1 * k.val = k.val; rw [(idx_facts0 t).2.1]; omega

/-- The weight block at every point is the whole weight array. -/
theorem weights_read (c : Dev nD) (t : Fin cfg0.N) (k : Fin 128) (q : Fin 256) :
    (iblk0 V c 1 t : Vec Ideal S128x256 .f32) (ix2 k q) = (V c main_arg1 : S128x256.Idx → EReal) (ix2 k q) := by
  unfold iblk0
  rw [View.read_apply]
  show V c main_arg1 _ = V c main_arg1 _
  refine congrArg (V c main_arg1) (funext fun a => Fin.ext ?_)
  match a with
  | ⟨0, _⟩ => show win0_1.index t (0 : Fin 2) * 128 + 1 * k.val = k.val; rw [(idx_facts0 t).2.2.1]; omega
  | ⟨1, _⟩ => show win0_1.index t (1 : Fin 2) * 256 + 1 * q.val = q.val; rw [(idx_facts0 t).2.2.2.1]; omega

/-- The bias block at every point is the whole bias row. -/
theorem bias_read (c : Dev nD) (t : Fin cfg0.N) (u : Fin 1) (q : Fin 256) :
    (iblk0 V c 2 t : Vec Ideal S1x256 .f32) (ix2 u q) = (V c main_v13 : S1x256.Idx → EReal) (ix2 u q) := by
  unfold iblk0
  rw [View.read_apply]
  show V c main_v13 _ = V c main_v13 _
  refine congrArg (V c main_v13) (funext fun a => Fin.ext ?_)
  match a with
  | ⟨0, _⟩ => show win0_2.index t (0 : Fin 2) * 1 + 1 * u.val = u.val; rw [(idx_facts0 t).2.2.2.2.1]; omega
  | ⟨1, _⟩ => show win0_2.index t (1 : Fin 2) * 256 + 1 * q.val = q.val; rw [(idx_facts0 t).2.2.2.2.2.1]; omega

/-- The rectified product block at point `t`, entry (p, q), is entry (2000 t + p, q) of the whole rectified product. -/
theorem block_entry (c : Dev nD) (t : Fin cfg0.N) (p : Fin 2000) (q : Fin 256) (hb : 2000 * t.val + p.val < 50000) :
    k0_pay3 (F := Ideal) (iblk0 V c 0 t) (iblk0 V c 1 t) (iblk0 V c 2 t) (ix2 p q)
      = reluEntry (V c main_v12) (V c main_arg1) (V c main_v13) ⟨2000 * t.val + p.val, hb⟩ q := by
  refine (relu_block_apply _ _ _ p q).trans ?_
  unfold reluEntry
  exact congrArg₂ max (congrArg₂ (· + ·) (Finset.sum_congr rfl fun k _ =>
    congrArg₂ (· * ·) (rows_read V c t p k hb) (weights_read V c t k q)) (bias_read V c t 0 q)) rfl

end Cert.KernelIdeal.ValueLeg

end
-- ==== Proof.KernelRegion0.lean ====
/-
  The first region's result arrays on the extended reals, entry by entry.

  With h the rectified product of the arrays the region finds (see the statistics module):
    * the first result array is h;
    * entry (0, q) of the second is ∑ᵣ h(r, q) over all 50000 rows: after point n the running row holds the sum of
      the first n + 1 block sums (induction on the point; the zero row is 0 and 0 + x = x), and 25 blocks of 2000
      rows tile the rows;
    * entry (0, q) of the third is ∑ᵣ h(r, q) · h(r, q), the same way.
-/
import proofs.«123701_j34333968564745_1_alg».proof.Proof.KernelStats

noncomputable section

open Idealize.ShloMosaic Idealize.ShloMosaic.TcCoe Idealize.SL.Sem Idealize.ShloMosaic.ValueIdx
open Idealize.ShloMosaic.Pipeline (Dat)
open scoped BigOperators

namespace Cert.KernelIdeal.ValueLeg

open Cert.KernelIdeal Cert.KernelIdeal.Gen Cert.BatchStat

variable (V : (c : Dev nD) → (b : Ref sig .tc) → Buf (Elt Ideal) ((c : Thread nD τ).loc b))

/-- Column q of the rectified product, by row. -/
abbrev hcol (c : Dev nD) (q : Fin 256) : Fin 50000 → EReal :=
  fun r => reluEntry (V c main_v12) (V c main_arg1) (V c main_v13) r q

/-- Column q of the squared rectified product, by row. -/
abbrev hsqcol (c : Dev nD) (q : Fin 256) : Fin 50000 → EReal :=
  fun r => reluEntry (V c main_v12) (V c main_arg1) (V c main_v13) r q * reluEntry (V c main_v12) (V c main_arg1) (V c main_v13) r q

/-- The running column sums after point `n`: the first n + 1 block sums of the column. -/
theorem sumsAt_apply (c : Dev nD) (u : Fin 1) (q : Fin 256) : ∀ (n : ℕ) (h : n < cfg0.N),
    sumsAt V c n h (ix2 u q) = ∑ t ∈ Finset.range (n + 1), ∑ p : Fin 2000, rowSeq (hcol V c q) (2000 * t + p.val)
  | 0, h => by
    show k0_pay4 (F := Ideal) _ _ _ _ (ix2 u q) = _
    refine (sums_step_apply _ _ _ _ u q).trans ?_
    rw [zero_row_apply, zero_add, Finset.sum_range_one]
    refine Finset.sum_congr rfl fun p _ => ?_
    have hb : 2000 * (⟨0, h⟩ : Fin cfg0.N).val + p.val < 50000 := by have := p.isLt; dsimp only; omega
    rw [rowSeq_of_lt _ _ hb]
    exact block_entry V c ⟨0, h⟩ p q hb
  | n + 1, h => by
    show k0_pay4 (F := Ideal) _ _ _ (sumsAt V c n _) (ix2 u q) = _
    refine (sums_step_apply _ _ _ _ u q).trans ?_
    rw [sumsAt_apply c u q n, Finset.sum_range_succ _ (n + 1)]
    refine congrArg₂ (· + ·) rfl (Finset.sum_congr rfl fun p _ => ?_)
    have hN : cfg0.N = 25 := N_0
    have hb : 2000 * (⟨n + 1, h⟩ : Fin cfg0.N).val + p.val < 50000 := by have := p.isLt; dsimp only; omega
    rw [rowSeq_of_lt _ _ hb]
    exact block_entry V c ⟨n + 1, h⟩ p q hb

/-- The running column sums of squares after point `n`. -/
theorem sqsumsAt_apply (c : Dev nD) (u : Fin 1) (q : Fin 256) : ∀ (n : ℕ) (h : n < cfg0.N),
    sqsumsAt V c n h (ix2 u q) = ∑ t ∈ Finset.range (n + 1), ∑ p : Fin 2000, rowSeq (hsqcol V c q) (2000 * t + p.val)
  | 0, h => by
    show k0_pay5 (F := Ideal) _ _ _ _ (ix2 u q) = _
    refine (sqsums_step_apply _ _ _ _ u q).trans ?_
    rw [zero_row_apply', zero_add, Finset.sum_range_one]
    refine Finset.sum_congr rfl fun p _ => ?_
    have hb : 2000 * (⟨0, h⟩ : Fin cfg0.N).val + p.val < 50000 := by have := p.isLt; dsimp only; omega
    rw [rowSeq_of_lt _ _ hb, block_entry V c ⟨0, h⟩ p q hb]
  | n + 1, h => by
    show k0_pay5 (F := Ideal) _ _ _ (sqsumsAt V c n _) (ix2 u q) = _
    refine (sqsums_step_apply _ _ _ _ u q).trans ?_
    rw [sqsumsAt_apply c u q n, Finset.sum_range_succ _ (n + 1)]
    refine congrArg₂ (· + ·) rfl (Finset.sum_congr rfl fun p _ => ?_)
    have hN : cfg0.N = 25 := N_0
    have hb : 2000 * (⟨n + 1, h⟩ : Fin cfg0.N).val + p.val < 50000 := by have := p.isLt; dsimp only; omega
    rw [rowSeq_of_lt _ _ hb, block_entry V c ⟨n + 1, h⟩ p q hb]

/-- The column-sum array at (0, q): the sum of column q of the rectified product over all rows. -/
theorem sums_total (c : Dev nD) (u : Fin 1) (q : Fin 256) :
    (dat0 V c).arrAt 4 cfg0.N (ix2 u q) = ∑ r : Fin 50000, hcol V c q r := by
  rw [final_sums V c]
  exact (sumsAt_apply V c u q 24 tlast.isLt).trans (sum_blocks_eq_sum_rows (hcol V c q))

/-- The sums-of-squares array at (0, q). -/
theorem sqsums_total (c : Dev nD) (u : Fin 1) (q : Fin 256) :
    (dat0 V c).arrAt 5 cfg0.N (ix2 u q) = ∑ r : Fin 50000, hsqcol V c q r := by
  rw [final_sqsums V c]
  exact (sqsumsAt_apply V c u q 24 tlast.isLt).trans (sum_blocks_eq_sum_rows (hsqcol V c q))

/-! ## The rectified product array -/

/-- What point `t` writes back of the first result array is its row block of the rectified product. -/
theorem flushed_relu (c : Dev nD) (t : Fin cfg0.N) :
    (dat0 V c).flushed 3 t = ((cfg0.win 3).blk t).view.read (Elt Ideal) (reluArr V c) := by
  show (cfg0.win 3).cut (grid0.coords t) ((dat0 V c).after 3 t) = _
  rw [after0_3, outsAt_eq]
  have hN : cfg0.N = 25 := N_0
  funext j
  rw [View.read_apply]
  have hj0 : (j 0).val < 2000 := (j 0).isLt
  have hj1 : (j 1).val < 256 := (j 1).isLt
  have hb : 2000 * t.val + (⟨(j 0).val, hj0⟩ : Fin 2000).val < 50000 := by have := t.isLt; dsimp only; omega
  have hjj : j = ix2 (⟨(j 0).val, hj0⟩ : Fin 2000) (⟨(j 1).val, hj1⟩ : Fin 256) := by
    funext a; match a with | ⟨0, _⟩ => rfl | ⟨1, _⟩ => rfl
  show k0_pay3 (F := Ideal) (iblk0 V c 0 t) (iblk0 V c 1 t) (iblk0 V c 2 t) j = reluArr V c (((cfg0.win 3).blk t).view.emb j)
  rw [hjj, block_entry V c t _ _ hb]
  unfold reluArr
  refine congrArg₂ (reluEntry (V c main_v12) (V c main_arg1) (V c main_v13)) (Fin.ext ?_) (Fin.ext ?_)
  · show 2000 * t.val + (j 0).val = win0_3.index t (0 : Fin 2) * 2000 + 1 * (j 0).val
    rw [(idx_facts0 t).2.2.2.2.2.2.1]; omega
  · show (j 1).val = win0_3.index t (1 : Fin 2) * 256 + 1 * (j 1).val
    rw [(idx_facts0 t).2.2.2.2.2.2.2]; omega

/-- An index of the array is in point `t`'s block iff each coordinate is in the block's range on its axis. -/
theorem mem_blk3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v14_0).slice (win0_3.rect t)).set ↔ _
  rw [View.set_slice_whole, Rect.mem_set_unit]
  exact Iff.rfl

/-- The first result array ends holding the rectified product: the 25 row blocks tile the rows. -/
theorem final_relu (c : Dev nD) : (dat0 V c).arrAt 3 cfg0.N = reluArr V c :=
  (dat0 V c).arrAt_eq_of_cover 3 (reluArr V c) (fun t _ => flushed_relu V c t) fun i => by
    have hN : cfg0.N = 25 := N_0
    have hi0 : (i 0).val < 50000 := (i 0).isLt
    have hi1 : (i 1).val < 256 := (i 1).isLt
    refine ⟨⟨(i 0).val / 2000, by omega⟩, flush0_3 _, ?_⟩
    rw [mem_blk3]
    intro a
    match a with
    | ⟨0, _⟩ =>
      show win0_3.index _ (0 : Fin 2) * 2000 ≤ (i 0).val ∧ (i 0).val < win0_3.index _ (0 : Fin 2) * 2000 + 2000
      rw [(idx_facts0 _).2.2.2.2.2.2.1]; dsimp only; omega
    | ⟨1, _⟩ =>
      show win0_3.index _ (1 : Fin 2) * 256 ≤ (i 1).val ∧ (i 1).val < win0_3.index _ (1 : Fin 2) * 256 + 256
      rw [(idx_facts0 _).2.2.2.2.2.2.2]; omega

end Cert.KernelIdeal.ValueLeg

end
-- ==== Proof.KernelRegion1.lean ====
/-
  The second region's result array as a function of the arrays the region finds.

  Grid point t reads row block t of the rectified product H and the four rows mean, istd, γ, β (each a whole
  [1, 256] array at every point) and writes back row block t of
      out(r, q) = (H(r, q) − mean(0, q)) · istd(0, q) · γ(0, q) + β(0, q).
  The 25 row blocks tile the rows, so the result array ends holding out.
-/
import proofs.«123701_j34333968564745_1_alg».proof.Proof.Gen.KernelIdeal.Frame
import proofs.«123701_j34333968564745_1_alg».proof.Proof.KernelEntries
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.ValueLeg

open Cert.KernelIdeal Cert.KernelIdeal.Gen

theorem hz1 : (![0, 0] : Fin 2 → Nat) = fun _ => 0 := funext fun a => by fin_cases a <;> rfl

/-- Entry (r, q) of the normalised array. -/
def normEntry (H : S50000x256.Idx → EReal) (mu istd g bt : S1x256.Idx → EReal) (r : Fin 50000) (q : Fin 256) : EReal :=
  (H (ix2 r q) - mu (ix2 (0 : Fin 1) q)) * istd (ix2 (0 : Fin 1) q) * g (ix2 (0 : Fin 1) q) + bt (ix2 (0 : Fin 1) q)

variable (V : (c : Dev nD) → (b : Ref sig .tc) → Buf (Elt Ideal) ((c : Thread nD τ).loc b))

/-- The normalised array over the arrays the region finds. -/
def normArr (c : Dev nD) : S50000x256.Idx → EReal :=
  fun i => normEntry (V c main_v14_0) (V c main_v26) (V c main_v27) (V c main_v28) (V c main_v29) (i 0) (i 1)

/-- The printed index maps over the grid: the row-blocked windows sit at block row `t`, the others at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the rectified-product block at point `t` is row `2000 t + p` of the array. -/
theorem big_read1 (c : Dev nD) (t : Fin cfg1.N) (p : Fin 2000) (q : Fin 256) (hb : 2000 * t.val + p.val < 50000) :
    (iblk1 V c 0 t : Vec Ideal S2000x256 .f32) (ix2 p q) = (V c main_v14_0 : S50000x256.Idx → EReal) (ix2 ⟨2000 * t.val + p.val, hb⟩ q) := by
  unfold iblk1
  rw [View.read_apply]
  show V c main_v14_0 _ = V c main_v14_0 _
  refine congrArg (V c main_v14_0) (funext fun a => Fin.ext ?_)
  match a with
  | ⟨0, _⟩ => show win1_0.index t (0 : Fin 2) * 2000 + 1 * p.val = 2000 * t.val + p.val; rw [(idx_facts1 t).1]; omega
  | ⟨1, _⟩ => show win1_0.index t (1 : Fin 2) * 256 + 1 * q.val = q.val; rw [(idx_facts1 t).2.1]; omega

/-- Each of the four row windows holds its whole array at every point. -/
theorem row_read1_1 (c : Dev nD) (t : Fin cfg1.N) (u : Fin 1) (q : Fin 256) :
    (iblk1 V c 1 t : Vec Ideal S1x256 .f32) (ix2 u q) = (V c main_v26 : S1x256.Idx → EReal) (ix2 u q) := by
  unfold iblk1
  rw [View.read_apply]
  show V c main_v26 _ = V c main_v26 _
  refine congrArg (V c main_v26) (funext fun a => Fin.ext ?_)
  match a with
  | ⟨0, _⟩ => show win1_1.index t (0 : Fin 2) * 1 + 1 * u.val = u.val; rw [(idx_facts1 t).2.2.1]; omega
  | ⟨1, _⟩ => show win1_1.index t (1 : Fin 2) * 256 + 1 * q.val = q.val; rw [(idx_facts1 t).2.2.2.1]; omega

theorem row_read1_2 (c : Dev nD) (t : Fin cfg1.N) (u : Fin 1) (q : Fin 256) :
    (iblk1 V c 2 t : Vec Ideal S1x256 .f32) (ix2 u q) = (V c main_v27 : S1x256.Idx → EReal) (ix2 u q) := by
  unfold iblk1
  rw [View.read_apply]
  show V c main_v27 _ = V c main_v27 _
  refine congrArg (V c main_v27) (funext fun a => Fin.ext ?_)
  match a with
  | ⟨0, _⟩ => show win1_2.index t (0 : Fin 2) * 1 + 1 * u.val = u.val; rw [(idx_facts1 t).2.2.2.2.1]; omega
  | ⟨1, _⟩ => show win1_2.index t (1 : Fin 2) * 256 + 1 * q.val = q.val; rw [(idx_facts1 t).2.2.2.2.2.1]; omega

theorem row_read1_3 (c : Dev nD) (t : Fin cfg1.N) (u : Fin 1) (q : Fin 256) :
    (iblk1 V c 3 t : Vec Ideal S1x256 .f32) (ix2 u q) = (V c main_v28 : S1x256.Idx → EReal) (ix2 u q) := by
  unfold iblk1
  rw [View.read_apply]
  show V c main_v28 _ = V c main_v28 _
  refine congrArg (V c main_v28) (funext fun a => Fin.ext ?_)
  match a with
  | ⟨0, _⟩ => show win1_3.index t (0 : Fin 2) * 1 + 1 * u.val = u.val; rw [(idx_facts1 t).2.2.2.2.2.2.1]; omega
  | ⟨1, _⟩ => show win1_3.index t (1 : Fin 2) * 256 + 1 * q.val = q.val; rw [(idx_facts1 t).2.2.2.2.2.2.2.1]; omega

theorem row_read1_4 (c : Dev nD) (t : Fin cfg1.N) (u : Fin 1) (q : Fin 256) :
    (iblk1 V c 4 t : Vec Ideal S1x256 .f32) (ix2 u q) = (V c main_v29 : S1x256.Idx → EReal) (ix2 u q) := by
  unfold iblk1
  rw [View.read_apply]
  show V c main_v29 _ = V c main_v29 _
  refine congrArg (V c main_v29) (funext fun a => Fin.ext ?_)
  match a with
  | ⟨0, _⟩ => show win1_4.index t (0 : Fin 2) * 1 + 1 * u.val = u.val; rw [(idx_facts1 t).2.2.2.2.2.2.2.2.1]; omega
  | ⟨1, _⟩ => show win1_4.index t (1 : Fin 2) * 256 + 1 * q.val = q.val; rw [(idx_facts1 t).2.2.2.2.2.2.2.2.2.1]; omega

/-- What point `t` writes back is its row block of the normalised array. -/
theorem flushed_norm (c : Dev nD) (t : Fin cfg1.N) :
    (dat1 V c).flushed 5 t = ((cfg1.win 5).blk t).view.read (Elt Ideal) (normArr V c) := by
  show (cfg1.win 5).cut (grid1.coords t) ((dat1 V c).after 5 t) = _
  rw [after1_5]
  unfold out1_5
  rw [View.canon_unit_zero hz1]
  simp only [View.ld_unit_zero (S := S2000x256) hz1, View.ld_unit_zero (S := S1x256) hz1]
  have hN : cfg1.N = 25 := N_1
  funext j
  rw [View.read_apply]
  have hj0 : (j 0).val < 2000 := (j 0).isLt
  have hj1 : (j 1).val < 256 := (j 1).isLt
  have hb : 2000 * t.val + (⟨(j 0).val, hj0⟩ : Fin 2000).val < 50000 := by have := t.isLt; dsimp only; omega
  have hjj : j = ix2 (⟨(j 0).val, hj0⟩ : Fin 2000) (⟨(j 1).val, hj1⟩ : Fin 256) := by
    funext a; match a with | ⟨0, _⟩ => rfl | ⟨1, _⟩ => rfl
  show k1_pay1 (F := Ideal) (iblk1 V c 0 t) (iblk1 V c 1 t) (iblk1 V c 2 t) (iblk1 V c 3 t) (iblk1 V c 4 t) j
    = normArr V c (((cfg1.win 5).blk t).view.emb j)
  rw [hjj]
  refine (normalise_apply _ _ _ _ _ _ _).trans ?_
  rw [big_read1 V c t _ _ hb, row_read1_1, row_read1_2, row_read1_3, row_read1_4]
  unfold normArr
  refine congrArg₂ (normEntry (V c main_v14_0) (V c main_v26) (V c main_v27) (V c main_v28) (V c main_v29)) (Fin.ext ?_) (Fin.ext ?_)
  · show 2000 * t.val + (j 0).val = win1_5.index t (0 : Fin 2) * 2000 + 1 * (j 0).val
    rw [(idx_facts1 t).2.2.2.2.2.2.2.2.2.2.1]; omega
  · show (j 1).val = win1_5.index t (1 : Fin 2) * 256 + 1 * (j 1).val
    rw [(idx_facts1 t).2.2.2.2.2.2.2.2.2.2.2]; omega

/-- An index of the array is in point `t`'s block iff each coordinate is in the block's range on its axis. -/
theorem mem_blk5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v30).slice (win1_5.rect t)).set ↔ _
  rw [View.set_slice_whole, Rect.mem_set_unit]
  exact Iff.rfl

/-- The result array ends holding the normalised array: the 25 row blocks tile the rows. -/
theorem final_norm (c : Dev nD) : (dat1 V c).arrAt 5 cfg1.N = normArr V c :=
  (dat1 V c).arrAt_eq_of_cover 5 (normArr V c) (fun t _ => flushed_norm V c t) fun i => by
    have hN : cfg1.N = 25 := N_1
    have hi0 : (i 0).val < 50000 := (i 0).isLt
    have hi1 : (i 1).val < 256 := (i 1).isLt
    refine ⟨⟨(i 0).val / 2000, by omega⟩, flush1_5 _, ?_⟩
    rw [mem_blk5]
    intro a
    match a with
    | ⟨0, _⟩ =>
      show win1_5.index _ (0 : Fin 2) * 2000 ≤ (i 0).val ∧ (i 0).val < win1_5.index _ (0 : Fin 2) * 2000 + 2000
      rw [(idx_facts1 _).2.2.2.2.2.2.2.2.2.2.1]; dsimp only; omega
    | ⟨1, _⟩ =>
      show win1_5.index _ (1 : Fin 2) * 256 ≤ (i 1).val ∧ (i 1).val < win1_5.index _ (1 : Fin 2) * 256 + 256
      rw [(idx_facts1 _).2.2.2.2.2.2.2.2.2.2.2]; omega

end Cert.KernelIdeal.ValueLeg

end
-- ==== Proof.LibRealImage.lean ====
/-
  GENERAL LEMMAS: real numbers inside the extended reals, under finite sums and maxima.
  • `coe_sum`: the image of a finite sum of reals is the sum of the images;
  • `coe_max`: the image of a maximum of two reals is the maximum of the images;
  • `sum_mul_real`: a finite sum of reals times a real is the sum of the products, computed on the extended reals
    (the distributive law, which fails there at infinities, holds when every term and the factor are real).
-/
import Mathlib.Data.EReal.Basic
import Mathlib.Data.EReal.Operations
import Mathlib.Algebra.BigOperators.Fin

open scoped BigOperators

namespace Cert.Lib.RealImage

/-- The image of a finite sum of reals is the sum of the images. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The image of a maximum of reals is the maximum of the images. -/
theorem coe_max (a b : ℝ) : ((max a b : ℝ) : EReal) = max (a : EReal) (b : EReal) :=
  EReal.coe_strictMono.monotone.map_max

/-- A sum of reals times a real is the sum of the products, on the extended reals. -/
theorem sum_mul_real {ι : Type*} (s : Finset ι) (h : ι → ℝ) (e : ℝ) :
    (∑ i ∈ s, (h i : EReal)) * (e : EReal) = ∑ i ∈ s, (h i : EReal) * (e : EReal) := by
  rw [← coe_sum, ← EReal.coe_mul, Finset.sum_mul, coe_sum]
  exact Finset.sum_congr rfl fun i _ => EReal.coe_mul _ _

end Cert.Lib.RealImage
-- ==== Proof.LibBatchVariance.lean ====
/-
  GENERAL LEMMAS: batch statistics over the reals, carried into the extended reals.
  • `var_real`: mean of squares minus squared mean is the mean squared deviation, for n reals and N = n ≠ 0;
  • `var_ereal`: the same identity computed on the extended reals, every entry the image of a real.

  For a column of n real numbers h with sum S, mean μ = S / N and n = N ≠ 0, the mean of the squares minus the
  square of the mean is the mean of the squared deviations:

      (∑ h²) / N − μ · μ  =  (∑ (h − μ)²) / N .

  Over the reals this is the expansion (h − μ)² = h² − 2 μ h + μ², summed, with ∑ h = μ N.  Over the extended reals
  the same identity holds when every h is (the image of) a real, because images of reals are closed under finite
  sums, products and differences; at an infinite entry it fails (∞ − ∞), which is why the entries are taken real.
  Division by N is written as multiplication by the real 1 / N.
-/
import Mathlib.Data.EReal.Basic
import Mathlib.Data.EReal.Operations
import Mathlib.Algebra.BigOperators.Fin
import Mathlib.Tactic.Ring
import Mathlib.Tactic.FieldSimp
import proofs.«123701_j34333968564745_1_alg».proof.Proof.LibRealImage

open scoped BigOperators

namespace Cert.Lib.BatchVariance

open Cert.Lib.RealImage

/-- Mean of squares minus squared mean is the mean squared deviation, over the reals. -/
theorem var_real {n : ℕ} (h : Fin n → ℝ) (N : ℝ) (hN : N ≠ 0) (hn : (n : ℝ) = N) :
    (∑ k, h k * h k) * (1 / N) - ((∑ k, h k) * (1 / N)) * ((∑ k, h k) * (1 / N))
      = (∑ k, (h k - (∑ k, h k) * (1 / N)) * (h k - (∑ k, h k) * (1 / N))) * (1 / N) := by
  obtain ⟨μ, hμ⟩ : ∃ μ, μ = (∑ k, h k) * (1 / N) := ⟨_, rfl⟩
  rw [← hμ]
  have e : ∑ k, (h k - μ) * (h k - μ) = (∑ k, h k * h k) - 2 * μ * (∑ k, h k) + n * (μ * μ) := by
    have : ∀ k, (h k - μ) * (h k - μ) = h k * h k - 2 * μ * h k + μ * μ := fun k => by ring
    simp only [this, Finset.sum_add_distrib, Finset.sum_sub_distrib, ← Finset.mul_sum, Finset.sum_const,
      Finset.card_univ, Fintype.card_fin, nsmul_eq_mul]
    ring
  have hS : (∑ k, h k) = μ * N := by rw [hμ]; field_simp
  rw [e, hn, hS]
  field_simp
  ring

/-- The same identity on the extended reals, every entry the image of a real. -/
theorem var_ereal {n : ℕ} (h : Fin n → ℝ) (N : ℝ) (hN : N ≠ 0) (hn : (n : ℝ) = N) :
    (∑ k, ((h k : EReal) * (h k : EReal))) * ((1 / N : ℝ) : EReal)
        - ((∑ k, (h k : EReal)) * ((1 / N : ℝ) : EReal)) * ((∑ k, (h k : EReal)) * ((1 / N : ℝ) : EReal))
      = (∑ k, ((h k : EReal) - (∑ k, (h k : EReal)) * ((1 / N : ℝ) : EReal))
            * ((h k : EReal) - (∑ k, (h k : EReal)) * ((1 / N : ℝ) : EReal))) * ((1 / N : ℝ) : EReal) := by
  have e1 : (∑ k, (h k : EReal)) = ((∑ k, h k : ℝ) : EReal) := (coe_sum _ _).symm
  have e2 : (∑ k, ((h k : EReal) * (h k : EReal))) = ((∑ k, h k * h k : ℝ) : EReal) := by
    rw [coe_sum]; exact Finset.sum_congr rfl fun k _ => (EReal.coe_mul _ _).symm
  rw [e1, e2, ← EReal.coe_mul, ← EReal.coe_mul, ← EReal.coe_mul, ← EReal.coe_sub]
  have e3 : (∑ k, ((h k : EReal) - (((∑ k, h k) * (1 / N) : ℝ) : EReal)) * ((h k : EReal) - (((∑ k, h k) * (1 / N) : ℝ) : EReal)))
      = ((∑ k, (h k - (∑ k, h k) * (1 / N)) * (h k - (∑ k, h k) * (1 / N)) : ℝ) : EReal) := by
    rw [coe_sum]; exact Finset.sum_congr rfl fun k _ => by rw [← EReal.coe_sub, ← EReal.coe_mul]
  rw [e3, ← EReal.coe_mul]
  exact congrArg _ (var_real h N hN hn)

end Cert.Lib.BatchVariance
-- ==== Proof.Spec.lean ====
/-
  Batch normalisation of a [50000, 256] array of extended reals, column by column, in the two arrangements the two
  programs use, and their agreement on real entries.

  ONE PASS (the kernel): from the column sums S(q) = ∑ᵣ h(r,q) and the column sums of squares Q(q) = ∑ᵣ h(r,q)²,
      mean = S / N,   var = Q / N − mean · mean,   out = (h − mean) · rsqrt(var + ε) · γ + β.
  TWO PASSES (the reference): mean = (0 + ∑ᵣ h) / N,  var = (0 + ∑ᵣ (h − mean)²) / N,  the same out.
  N is the float 50000, ε the float nearest 1e-5, 0 the float zero; division by N is multiplication by the real
  1 / 50000 on every extended real.

  When every entry of h is (the image of) a real the two variances agree — mean of squares minus squared mean is
  the mean squared deviation — so the two outputs agree entry by entry, whatever γ and β are.  At an infinite entry
  they do not (∞ − ∞), which is why the entries are asked to be real.
-/
import Idealize.ShloMosaic.PureOps.Ideal
import Idealize.ShloMosaic.PureOps.Ideal.Laws
import proofs.«123701_j34333968564745_1_alg».proof.Proof.LibBatchVariance

noncomputable section

open scoped BigOperators

namespace Cert.BatchStat

open Idealize.ShloMosaic Cert.Lib.BatchVariance

/-- The float zero. -/
def zeroW : EReal := Ideal.ofBits .f32 0x00000000#32
/-- The float 50000, the number of rows. -/
def nW : EReal := Ideal.ofBits .f32 0x47435000#32
/-- The float nearest 1e-5. -/
def epsW : EReal := Ideal.ofBits .f32 0x3727C5AC#32

theorem zeroW_eq : zeroW = 0 := Ideal.ofBits_zero_f32

theorem nW_eq : nW = ((50000 : ℝ) : EReal) := by
  unfold nW
  simp [Ideal.ofBits, Ideal.ieee, -EReal.coe_mul]; norm_num

/-- Division by the row count is multiplication by the real 1 / 50000. -/
theorem div_nW (x : EReal) : Ideal.div x nW = x * ((1 / 50000 : ℝ) : EReal) := by
  rw [nW_eq]; exact Ideal.div_coe (by norm_num) x

variable (h : Fin 50000 → Fin 256 → EReal) (γ β : Fin 256 → EReal)

/-! ## One pass, from the column sums and the column sums of squares -/

def meanOnePass (S : Fin 256 → EReal) (q : Fin 256) : EReal := Ideal.div (S q) nW
def varOnePass (S Q : Fin 256 → EReal) (q : Fin 256) : EReal := Ideal.div (Q q) nW - meanOnePass S q * meanOnePass S q
def outOnePass (S Q : Fin 256 → EReal) (r : Fin 50000) (q : Fin 256) : EReal :=
  (h r q - meanOnePass S q) * Ideal.rsqrt (varOnePass S Q q + epsW) * γ q + β q

/-! ## Two passes -/

def meanTwoPass (q : Fin 256) : EReal := Ideal.div (zeroW + ∑ r, h r q) nW
def varTwoPass (q : Fin 256) : EReal :=
  Ideal.div (zeroW + ∑ r, (h r q - meanTwoPass h q) * (h r q - meanTwoPass h q)) nW
def outTwoPass (r : Fin 50000) (q : Fin 256) : EReal :=
  (h r q - meanTwoPass h q) * Ideal.rsqrt (varTwoPass h q + epsW) * γ q + β q

/-- On real entries the two arrangements give the same output. -/
theorem outOnePass_eq_outTwoPass (hfin : ∀ r q, ∃ x : ℝ, h r q = (x : EReal)) (r : Fin 50000) (q : Fin 256) :
    outOnePass h γ β (fun q => ∑ r, h r q) (fun q => ∑ r, h r q * h r q) r q = outTwoPass h γ β r q := by
  choose h' hh' using hfin
  have hmean : meanOnePass (fun q => ∑ r, h r q) q = meanTwoPass h q := by
    unfold meanOnePass meanTwoPass
    rw [zeroW_eq, zero_add]
  have hvar : varOnePass (fun q => ∑ r, h r q) (fun q => ∑ r, h r q * h r q) q = varTwoPass h q := by
    unfold varOnePass varTwoPass
    rw [hmean]
    unfold meanTwoPass
    rw [zeroW_eq, zero_add, zero_add, div_nW, div_nW, div_nW]
    simp only [hh']
    exact var_ereal (fun r => h' r q) 50000 (by norm_num) (by norm_num)
  unfold outOnePass outTwoPass
  rw [hmean, hvar]

/-! ## The rectified product -/

/-- Entry (r, q) of  max (A · W + b, 0)  for a bias given per column. -/
def reluRow {K : ℕ} (A : Fin 50000 → Fin K → EReal) (W : Fin K → Fin 256 → EReal) (b : Fin 256 → EReal) (r : Fin 50000) (q : Fin 256) : EReal :=
  max ((∑ k : Fin K, A r k * W k q) + b q) zeroW

/-- The rectified product of real arrays has real entries. -/
theorem reluRow_real {K : ℕ} (A : Fin 50000 → Fin K → EReal) (W : Fin K → Fin 256 → EReal) (b : Fin 256 → EReal)
    (hA : ∀ r k, ∃ x : ℝ, A r k = (x : EReal)) (hW : ∀ k q, ∃ x : ℝ, W k q = (x : EReal)) (hb : ∀ q, ∃ x : ℝ, b q = (x : EReal))
    (r : Fin 50000) (q : Fin 256) : ∃ x : ℝ, reluRow A W b r q = (x : EReal) := by
  choose A' hA' using hA
  choose W' hW' using hW
  choose b' hb' using hb
  refine ⟨max ((∑ k : Fin K, A' r k * W' k q) + b' q) 0, ?_⟩
  unfold reluRow
  rw [zeroW_eq, Cert.Lib.RealImage.coe_max, EReal.coe_add, Cert.Lib.RealImage.coe_sum, EReal.coe_zero]
  simp only [hA', hW', hb', EReal.coe_mul]

end Cert.BatchStat

end
-- ==== Proof.KernelHost.lean ====
/-
  The host operations of the kernel program around its two regions.

  Before the first region: the edge features are gathered, weighted and scatter-added into the aggregated feature
  array, and the bias is re-laid as a [1, 256] row; the weights are an argument.
  Between the regions: from the column sums s and the column sums of squares sq (the first region's second and third
  result arrays, re-laid to [256]),
      mean = s / N,   istd = rsqrt (sq / N − mean · mean + ε),
  each re-laid as a [1, 256] row, beside the re-laid rows of γ and β.  The first region's first result array is not
  touched, and no argument array is written by anything.
-/
import proofs.«123701_j34333968564745_1_alg».proof.Proof.Gen.KernelIdeal.Frame
import proofs.«123701_j34333968564745_1_alg».proof.Proof.Spec
import Idealize.ShloMosaic.Lib.StableHlo.Run
import Idealize.ShloMosaic.Lib.Tactic
import Idealize.ShloMosaic.Lib.ValueLayout
import Idealize.ShloMosaic.Lib.ValueIdx

noncomputable section

open Idealize.ShloMosaic Idealize.ShloMosaic.TcCoe Idealize.SL.Sem Idealize.ShloMosaic.StableHlo Idealize.ShloMosaic.ValueIdx

namespace Cert.KernelIdeal.ValueLeg

open Cert.KernelIdeal Cert.KernelIdeal.Gen Cert.BatchStat

section AnyFloat

variable {F : FTy → Type} [FloatOps F]

/-- The aggregated features: each edge's source row, weighted by the edge weight, added into the edge's
    destination row of a zero array. -/
def aggregate (x : Vec F S50000x128 .f32) (ew : Vec F S800000 .f32) (src dst : IVec S800000 32) : Vec F S50000x128 .f32 :=
  Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (mulf
        (Host.gather gather_S50000x128_S800000x1_S800000x128_1_0_n_n_0_1_1128 x
          (broadcastInDim S800000x1 ![0] bcast_S800000_S800000x1_0
            (select
              (cmpi .slt src (broadcastInDim S800000 ![] bcast_S_S800000 (constantI S_ 32 0#32)))
              (addi src (broadcastInDim S800000 ![] bcast_S_S800000 (constantI S_ 32 50000#32)))
              src)))
        (broadcastInDim S800000x128 ![0, 1] bcast_S800000x1_S800000x128_0_1
          (broadcastInDim S800000x1 ![0] bcast_S800000_S800000x1_0 ew)))

/-- The mean row from the column-sum row. -/
def meanRow (s : Vec F S1x256 .f32) : Vec F S256 .f32 :=
  Host.divf (shapeCast S256 s shapeCasts_S1x256_S256) (broadcastInDim S256 ![] bcast_S_S256 (constant S_ .f32 0x47435000#32))

/-- The reciprocal standard deviation row from the two column-sum rows. -/
def istdRow (s sq : Vec F S1x256 .f32) : Vec F S256 .f32 :=
  Host.rsqrt
    (addf
      (subf
        (Host.divf (shapeCast S256 sq shapeCasts_S1x256_S256) (broadcastInDim S256 ![] bcast_S_S256 (constant S_ .f32 0x47435000#32)))
        (mulf (meanRow s) (meanRow s)))
      (broadcastInDim S256 ![] bcast_S_S256 (constant S_ .f32 0x3727C5AC#32)))

variable (m : (ℓ : Loc nD τ sig) → Buf (Elt F) ℓ) (ρ : Dev nD → PrngReg)

/-! ## Before the first region -/

theorem entry_agg (c : Dev nD) : V1 m ρ c main_v12
    = aggregate (m ((c.tc : Thread nD τ).loc main_arg0)) (m ((c.tc : Thread nD τ).loc main_arg5))
        (m ((c.tc : Thread nD τ).loc main_arg6)) (m ((c.tc : Thread nD τ).loc main_arg7)) := by
  show StableHlo.after hostOps0 (W0 m ρ c) (Proc.devRef .tc main_v12) = _
  after_results
  rfl

theorem entry_bias (c : Dev nD) : (V1 m ρ c main_v13 : Vec F S1x256 .f32)
    = shapeCast S1x256 (m ((c.tc : Thread nD τ).loc main_arg2)) shapeCasts_S256_S1x256 := by
  show StableHlo.after hostOps0 (W0 m ρ c) (Proc.devRef .tc main_v13) = _
  after_results
  rfl

theorem entry_weights (c : Dev nD) : V1 m ρ c main_arg1 = m ((c.tc : Thread nD τ).loc main_arg1) := by
  show StableHlo.after hostOps0 (W0 m ρ c) (Proc.devRef .tc main_arg1) = _
  after_results

/-! ## Between the regions -/

theorem mid_relu (c : Dev nD) : V3 m ρ c main_v14_0 = (dat0 (V1 m ρ) c).arrAt 3 cfg0.N := by
  refine Eq.trans ?_ (W2_arr m ρ c 3)
  show StableHlo.after hostOps1 (W2 m ρ c) (Proc.devRef .tc main_v14_0) = _
  after_results

theorem mid_mean (c : Dev nD) : (V3 m ρ c main_v26 : Vec F S1x256 .f32)
    = shapeCast S1x256 (meanRow ((dat0 (V1 m ρ) c).arrAt 4 cfg0.N)) shapeCasts_S256_S1x256 := by
  rw [← W2_arr m ρ c 4]
  show StableHlo.after hostOps1 (W2 m ρ c) (Proc.devRef .tc main_v26) = _
  after_results
  rfl

theorem mid_istd (c : Dev nD) : (V3 m ρ c main_v27 : Vec F S1x256 .f32)
    = shapeCast S1x256 (istdRow ((dat0 (V1 m ρ) c).arrAt 4 cfg0.N) ((dat0 (V1 m ρ) c).arrAt 5 cfg0.N)) shapeCasts_S256_S1x256 := by
  rw [← W2_arr m ρ c 4, ← W2_arr m ρ c 5]
  show StableHlo.after hostOps1 (W2 m ρ c) (Proc.devRef .tc main_v27) = _
  after_results
  rfl

/-- An argument array still holds its launch contents after the first region. -/
theorem W2_arg3 (c : Dev nD) : W2 m ρ c (Proc.devRef .tc main_arg3) = m ((c.tc : Thread nD τ).loc main_arg3) := by
  refine (W2_of_ne m ρ c main_arg3 (by decide)).trans ?_
  show StableHlo.after hostOps0 (W0 m ρ c) (Proc.devRef .tc main_arg3) = _
  after_results

theorem W2_arg4 (c : Dev nD) : W2 m ρ c (Proc.devRef .tc main_arg4) = m ((c.tc : Thread nD τ).loc main_arg4) := by
  refine (W2_of_ne m ρ c main_arg4 (by decide)).trans ?_
  show StableHlo.after hostOps0 (W0 m ρ c) (Proc.devRef .tc main_arg4) = _
  after_results

theorem mid_gamma (c : Dev nD) : (V3 m ρ c main_v28 : Vec F S1x256 .f32)
    = shapeCast S1x256 (m ((c.tc : Thread nD τ).loc main_arg3)) shapeCasts_S256_S1x256 := by
  rw [← W2_arg3 m ρ c]
  show StableHlo.after hostOps1 (W2 m ρ c) (Proc.devRef .tc main_v28) = _
  after_results
  rfl

theorem mid_beta (c : Dev nD) : (V3 m ρ c main_v29 : Vec F S1x256 .f32)
    = shapeCast S1x256 (m ((c.tc : Thread nD τ).loc main_arg4)) shapeCasts_S256_S1x256 := by
  rw [← W2_arg4 m ρ c]
  show StableHlo.after hostOps1 (W2 m ρ c) (Proc.devRef .tc main_v29) = _
  after_results
  rfl

end AnyFloat

/-! ## On the extended reals: the two rows at an entry -/

theorem meanRow_apply (s : Vec Ideal S1x256 .f32) (q : Fin 256) :
    meanRow (F := Ideal) s (ix1 q) = meanOnePass (fun q => s (ix2 (0 : Fin 1) q)) q := by
  unfold meanRow meanOnePass nW
  exact congrArg₂ Ideal.div (shapeCast_1a_a_apply s _ q) rfl

theorem istdRow_apply (s sq : Vec Ideal S1x256 .f32) (q : Fin 256) :
    istdRow (F := Ideal) s sq (ix1 q)
      = Ideal.rsqrt (varOnePass (fun q => s (ix2 (0 : Fin 1) q)) (fun q => sq (ix2 (0 : Fin 1) q)) q + epsW) := by
  unfold istdRow varOnePass epsW
  show Ideal.rsqrt ((Ideal.div (shapeCast S256 sq shapeCasts_S1x256_S256 (ix1 q)) _ - meanRow (F := Ideal) s (ix1 q) * meanRow (F := Ideal) s (ix1 q)) + _) = _
  rw [meanRow_apply, shapeCast_1a_a_apply]
  rfl

end Cert.KernelIdeal.ValueLeg

end
-- ==== Proof.KernelValue.lean ====
/-
  The idealized kernel's result array, entry by entry, as a function of the arguments.

  With A the aggregated features, h(r, q) = max (∑ₖ A(r,k) · W(k,q) + b(q), 0), S(q) = ∑ᵣ h(r,q), Q(q) = ∑ᵣ h(r,q)²
  and N = 50000, entry (r, q) of the result is
      (h(r,q) − S(q)/N) · rsqrt (Q(q)/N − (S(q)/N)² + ε) · γ(q) + β(q):
  the second region normalises the first region's rectified product by the mean and reciprocal-standard-deviation
  rows the host computes, in between, from the first region's two accumulator rows.
-/
import proofs.«123701_j34333968564745_1_alg».proof.Proof.KernelRegion0
import proofs.«123701_j34333968564745_1_alg».proof.Proof.KernelRegion1
import proofs.«123701_j34333968564745_1_alg».proof.Proof.KernelHost
import proofs.«123701_j34333968564745_1_alg».proof.Proof.Spec

noncomputable section

open Idealize.ShloMosaic Idealize.ShloMosaic.TcCoe Idealize.SL.Sem Idealize.ShloMosaic.ValueIdx
open scoped BigOperators

namespace Cert.KernelIdeal.ValueLeg

open Cert.KernelIdeal Cert.KernelIdeal.Gen Cert.BatchStat

variable (m : (ℓ : Loc nD τ sig) → Buf (Elt Ideal) ℓ) (ρ : Dev nD → PrngReg)

/-- The kernel's rectified product, by row and column, over the argument arrays. -/
def hKer (c : Dev nD) : Fin 50000 → Fin 256 → EReal :=
  reluRow (fun r k => aggregate (F := Ideal) (m ((c.tc : Thread nD τ).loc main_arg0)) (m ((c.tc : Thread nD τ).loc main_arg5)) (m ((c.tc : Thread nD τ).loc main_arg6)) (m ((c.tc : Thread nD τ).loc main_arg7)) (ix2 r k))
    (fun k q => (m ((c.tc : Thread nD τ).loc main_arg1)) (ix2 k q)) (fun q => (m ((c.tc : Thread nD τ).loc main_arg2)) (ix1 q))

/-- The rectified product of the arrays the first region finds is the rectified product of the arguments. -/
theorem relu_entry_eq (c : Dev nD) (r : Fin 50000) (q : Fin 256) :
    reluEntry (V1 m ρ c main_v12) (V1 m ρ c main_arg1) (V1 m ρ c main_v13) r q = hKer m c r q := by
  unfold reluEntry hKer reluRow zeroW
  rw [entry_agg m ρ c, entry_weights m ρ c, entry_bias m ρ c, shapeCast_a_1a_apply]

/-- Entry (r, q) of the result array after the run. -/
theorem kernel_entry (c : Dev nD) (r : Fin 50000) (q : Fin 256) :
    W4 m ρ c (Proc.devRef .tc main_v30) (ix2 r q)
      = outOnePass (hKer m c) (fun q => (m ((c.tc : Thread nD τ).loc main_arg3)) (ix1 q)) (fun q => (m ((c.tc : Thread nD τ).loc main_arg4)) (ix1 q))
          (fun q => ∑ r, hKer m c r q) (fun q => ∑ r, hKer m c r q * hKer m c r q) r q := by
  have e0 : W4 m ρ c (Proc.devRef .tc main_v30) = normArr (V3 m ρ) c := (W4_arr m ρ c 5).trans (final_norm (V3 m ρ) c)
  rw [e0]
  show normEntry (V3 m ρ c main_v14_0) (V3 m ρ c main_v26) (V3 m ρ c main_v27) (V3 m ρ c main_v28) (V3 m ρ c main_v29) r q = _
  have hS : (fun q : Fin 256 => ((dat0 (V1 m ρ) c).arrAt 4 cfg0.N (ix2 (0 : Fin 1) q) : EReal)) = fun q => ∑ r, hKer m c r q := by
    funext q
    refine (sums_total (V1 m ρ) c 0 q).trans ?_
    show (∑ r : Fin 50000, hcol (V1 m ρ) c q r : EReal) = ∑ r, hKer m c r q
    exact Finset.sum_congr rfl fun r _ => relu_entry_eq m ρ c r q
  have hQ : (fun q : Fin 256 => ((dat0 (V1 m ρ) c).arrAt 5 cfg0.N (ix2 (0 : Fin 1) q) : EReal)) = fun q => ∑ r, hKer m c r q * hKer m c r q := by
    funext q
    refine (sqsums_total (V1 m ρ) c 0 q).trans ?_
    show (∑ r : Fin 50000, hsqcol (V1 m ρ) c q r : EReal) = ∑ r, hKer m c r q * hKer m c r q
    refine Finset.sum_congr rfl fun r _ => ?_
    show reluEntry (V1 m ρ c main_v12) (V1 m ρ c main_arg1) (V1 m ρ c main_v13) r q
      * reluEntry (V1 m ρ c main_v12) (V1 m ρ c main_arg1) (V1 m ρ c main_v13) r q = _
    rw [relu_entry_eq m ρ c r q]
  have h1 : (V3 m ρ c main_v14_0 : S50000x256.Idx → EReal) (ix2 r q) = hKer m c r q := by
    rw [mid_relu m ρ c, final_relu (V1 m ρ) c]
    exact relu_entry_eq m ρ c r q
  have h2 : (V3 m ρ c main_v26 : S1x256.Idx → EReal) (ix2 (0 : Fin 1) q) = meanOnePass (fun q => ∑ r, hKer m c r q) q := by
    rw [mid_mean m ρ c]
    refine (shapeCast_a_1a_apply _ _ 0 q).trans ?_
    rw [meanRow_apply, hS]
  have h3 : (V3 m ρ c main_v27 : S1x256.Idx → EReal) (ix2 (0 : Fin 1) q)
      = Ideal.rsqrt (varOnePass (fun q => ∑ r, hKer m c r q) (fun q => ∑ r, hKer m c r q * hKer m c r q) q + epsW) := by
    rw [mid_istd m ρ c]
    refine (shapeCast_a_1a_apply _ _ 0 q).trans ?_
    rw [istdRow_apply, hS, hQ]
  have h4 : (V3 m ρ c main_v28 : S1x256.Idx → EReal) (ix2 (0 : Fin 1) q) = (m ((c.tc : Thread nD τ).loc main_arg3)) (ix1 q) := by
    rw [mid_gamma m ρ c]
    exact shapeCast_a_1a_apply _ _ 0 q
  have h5 : (V3 m ρ c main_v29 : S1x256.Idx → EReal) (ix2 (0 : Fin 1) q) = (m ((c.tc : Thread nD τ).loc main_arg4)) (ix1 q) := by
    rw [mid_beta m ρ c]
    exact shapeCast_a_1a_apply _ _ 0 q
  unfold normEntry outOnePass
  rw [h1, h2, h3, h4, h5]

end Cert.KernelIdeal.ValueLeg

end
-- ==== Proof.RefTerm.lean ====
/-
  The reference program's result, entry by entry, on the extended reals.

  With A the aggregated features (the reference's own gather, weighting and scatter-add, left unopened),
  h(r, q) = max (∑ₖ A(r,k) · W(k,q) + b(q), 0)  and  N = 50000:
      mean(q) = (0 + ∑ᵣ h(r,q)) / N,     var(q) = (0 + ∑ᵣ (h(r,q) − mean(q))²) / N,
      out(r, q) = (h(r,q) − mean(q)) · rsqrt(var(q) + ε) · γ(q) + β(q).
  Each stage of the reference is read at an index through the generated read-at-an-index lemmas; the composed
  index maps of the broadcasts are the evident coordinates.
-/
import proofs.«123701_j34333968564745_1_alg».proof.Proof.Gen.ReferenceIdeal.Run
import proofs.«123701_j34333968564745_1_alg».proof.Proof.Gen.ReferenceIdeal.Read
import proofs.«123701_j34333968564745_1_alg».proof.Proof.Spec
import Idealize.ShloMosaic.Lib.ValueIdx

noncomputable section

open Idealize.ShloMosaic Idealize.ShloMosaic.ValueIdx
open scoped BigOperators

namespace Cert.ReferenceIdeal.RefValue

open Cert.ReferenceIdeal Cert.ReferenceIdeal.Gen Cert.ReferenceIdeal.Read Cert.BatchStat

/-- The reference's rectified product, by row and column. -/
def hRef (x0 : (⟨S50000x128, .f32⟩ : BufTy).Contents (Elt Ideal)) (x1 : (⟨S128x256, .f32⟩ : BufTy).Contents (Elt Ideal)) (x2 : (⟨S256, .f32⟩ : BufTy).Contents (Elt Ideal)) (x5 : (⟨S800000, .f32⟩ : BufTy).Contents (Elt Ideal)) (x6 x7 : (⟨S800000, .i32⟩ : BufTy).Contents (Elt Ideal)) : Fin 50000 → Fin 256 → EReal :=
  reluRow (fun r k => val_main_v12 (F := Ideal) x0 x5 x6 x7 (ix2 r k)) (fun k q => x1 (ix2 k q)) (fun q => x2 (ix1 q))

theorem lidx_eq (r : Fin 50000) (q : Fin 256) (k : Fin 128) : lidx_main_v13 (ix2 r q) k = ix2 r k := by
  funext a; match a with | ⟨0, _⟩ => rfl | ⟨1, _⟩ => rfl
theorem ridx_eq (r : Fin 50000) (q : Fin 256) (k : Fin 128) : ridx_main_v13 (ix2 r q) k = ix2 k q := by
  funext a; match a with | ⟨0, _⟩ => rfl | ⟨1, _⟩ => rfl
theorem bias_idx_eq (r : Fin 50000) (q : Fin 256) : idx_main_v14 (idx_main_v15 (ix2 r q)) = ix1 q := by
  funext a; match a with | ⟨0, _⟩ => rfl

/-- The rectifier's output at an entry. -/
theorem relu_ref (x0 : (⟨S50000x128, .f32⟩ : BufTy).Contents (Elt Ideal)) (x1 : (⟨S128x256, .f32⟩ : BufTy).Contents (Elt Ideal)) (x2 : (⟨S256, .f32⟩ : BufTy).Contents (Elt Ideal)) (x5 : (⟨S800000, .f32⟩ : BufTy).Contents (Elt Ideal)) (x6 x7 : (⟨S800000, .i32⟩ : BufTy).Contents (Elt Ideal)) (r : Fin 50000) (q : Fin 256) :
    val_main_v17 (F := Ideal) x0 x1 x2 x5 x6 x7 (ix2 r q) = hRef x0 x1 x2 x5 x6 x7 r q := by
  rw [val_main_v17_apply, val_main_v16_apply, val_main_v13_apply, val_main_v15_apply, val_main_v14_apply,
    val_main_call0_v0_apply, val_main_call0_cst_apply]
  unfold hRef reluRow zeroW
  generalize val_main_v12 (F := Ideal) x0 x5 x6 x7 = A
  simp only [lidx_eq, ridx_eq, bias_idx_eq]
  rfl

theorem col_idx_eq (q : Fin 256) (k : Fin 50000) : idx_main_v18 (ix1 q) k = ix2 k q := by
  funext a; match a with | ⟨0, _⟩ => rfl | ⟨1, _⟩ => rfl
theorem col_idx_eq' (q : Fin 256) (k : Fin 50000) : idx_main_v25 (ix1 q) k = ix2 k q := by
  funext a; match a with | ⟨0, _⟩ => rfl | ⟨1, _⟩ => rfl

/-- The mean at a column. -/
theorem mean_ref (x0 : (⟨S50000x128, .f32⟩ : BufTy).Contents (Elt Ideal)) (x1 : (⟨S128x256, .f32⟩ : BufTy).Contents (Elt Ideal)) (x2 : (⟨S256, .f32⟩ : BufTy).Contents (Elt Ideal)) (x5 : (⟨S800000, .f32⟩ : BufTy).Contents (Elt Ideal)) (x6 x7 : (⟨S800000, .i32⟩ : BufTy).Contents (Elt Ideal)) (q : Fin 256) :
    val_main_v20 (F := Ideal) x0 x1 x2 x5 x6 x7 (ix1 q) = meanTwoPass (hRef x0 x1 x2 x5 x6 x7) q := by
  rw [val_main_v20_apply, val_main_v18_apply, val_main_v19_apply, val_main_cst_2_apply, val_main_cst_1_apply]
  unfold meanTwoPass zeroW nW
  simp only [col_idx_eq, relu_ref]
  generalize hRef x0 x1 x2 x5 x6 x7 = h
  rfl

theorem mean_idx_eq (r : Fin 50000) (q : Fin 256) : idx_main_v21 (idx_main_v22 (ix2 r q)) = ix1 q := by
  funext a; match a with | ⟨0, _⟩ => rfl
theorem mean_idx_eq' (r : Fin 50000) (q : Fin 256) : idx_main_v28 (idx_main_v29 (ix2 r q)) = ix1 q := by
  funext a; match a with | ⟨0, _⟩ => rfl

/-- A squared deviation from the mean, at an entry. -/
theorem sqdev_ref (x0 : (⟨S50000x128, .f32⟩ : BufTy).Contents (Elt Ideal)) (x1 : (⟨S128x256, .f32⟩ : BufTy).Contents (Elt Ideal)) (x2 : (⟨S256, .f32⟩ : BufTy).Contents (Elt Ideal)) (x5 : (⟨S800000, .f32⟩ : BufTy).Contents (Elt Ideal)) (x6 x7 : (⟨S800000, .i32⟩ : BufTy).Contents (Elt Ideal)) (k : Fin 50000) (q : Fin 256) :
    val_main_v24 (F := Ideal) x0 x1 x2 x5 x6 x7 (ix2 k q)
      = (hRef x0 x1 x2 x5 x6 x7 k q - meanTwoPass (hRef x0 x1 x2 x5 x6 x7) q)
          * (hRef x0 x1 x2 x5 x6 x7 k q - meanTwoPass (hRef x0 x1 x2 x5 x6 x7) q) := by
  rw [val_main_v24_apply, val_main_v23_apply, val_main_v22_apply, val_main_v21_apply, mean_idx_eq, relu_ref, mean_ref]
  rfl

/-- The variance at a column. -/
theorem var_ref (x0 : (⟨S50000x128, .f32⟩ : BufTy).Contents (Elt Ideal)) (x1 : (⟨S128x256, .f32⟩ : BufTy).Contents (Elt Ideal)) (x2 : (⟨S256, .f32⟩ : BufTy).Contents (Elt Ideal)) (x5 : (⟨S800000, .f32⟩ : BufTy).Contents (Elt Ideal)) (x6 x7 : (⟨S800000, .i32⟩ : BufTy).Contents (Elt Ideal)) (q : Fin 256) :
    val_main_v27 (F := Ideal) x0 x1 x2 x5 x6 x7 (ix1 q) = varTwoPass (hRef x0 x1 x2 x5 x6 x7) q := by
  rw [val_main_v27_apply, val_main_v25_apply, val_main_v26_apply, val_main_cst_4_apply, val_main_cst_3_apply]
  unfold varTwoPass zeroW nW
  refine congrArg₂ Ideal.div (congrArg₂ (· + ·) rfl (Finset.sum_congr rfl fun k _ => ?_)) rfl
  rw [col_idx_eq', sqdev_ref]

theorem row_idx_eq (r : Fin 50000) (q : Fin 256) : idx_main_v34 (idx_main_v35 (ix2 r q)) = ix1 q := by
  funext a; match a with | ⟨0, _⟩ => rfl
theorem gamma_idx_eq (r : Fin 50000) (q : Fin 256) : idx_main_v37 (idx_main_v38 (ix2 r q)) = ix1 q := by
  funext a; match a with | ⟨0, _⟩ => rfl
theorem beta_idx_eq (r : Fin 50000) (q : Fin 256) : idx_main_v40 (idx_main_v41 (ix2 r q)) = ix1 q := by
  funext a; match a with | ⟨0, _⟩ => rfl

/-- The reference's result at an entry. -/
theorem out_ref (x0 : (⟨S50000x128, .f32⟩ : BufTy).Contents (Elt Ideal)) (x1 : (⟨S128x256, .f32⟩ : BufTy).Contents (Elt Ideal)) (x2 : (⟨S256, .f32⟩ : BufTy).Contents (Elt Ideal)) (x5 : (⟨S800000, .f32⟩ : BufTy).Contents (Elt Ideal)) (x6 x7 : (⟨S800000, .i32⟩ : BufTy).Contents (Elt Ideal)) (x3 x4 : (⟨S256, .f32⟩ : BufTy).Contents (Elt Ideal)) (r : Fin 50000) (q : Fin 256) :
    val_main_v42 (F := Ideal) x0 x1 x2 x3 x4 x5 x6 x7 (ix2 r q)
      = outTwoPass (hRef x0 x1 x2 x5 x6 x7) (fun q => x3 (ix1 q)) (fun q => x4 (ix1 q)) r q := by
  rw [val_main_v42_apply, val_main_v39_apply, val_main_v36_apply, val_main_v30_apply, val_main_v29_apply, val_main_v28_apply,
    val_main_v35_apply, val_main_v34_apply, val_main_v33_apply, val_main_v32_apply, val_main_v31_apply, val_main_cst_5_apply,
    val_main_v38_apply, val_main_v37_apply, val_main_v41_apply, val_main_v40_apply]
  unfold outTwoPass epsW
  simp only [mean_idx_eq', row_idx_eq, gamma_idx_eq, beta_idx_eq, relu_ref, mean_ref, var_ref]
  generalize hRef x0 x1 x2 x5 x6 x7 = h
  rfl

end Cert.ReferenceIdeal.RefValue

end
-- ==== Proof.Finite.lean ====
/-
  From the precondition to real entries.

  The precondition is the conjunction, over the six float arguments, of "every entry's absolute value is below +∞".
  At the extended reals an entry x with max x (−x) < +∞ is neither +∞ nor −∞, so it is (the image of) a real.
  A conjunction of one-bit words is 1 only when each conjunct is, and an all-reduction by "and" that is 1 had a 1
  at every entry.
-/
import proofs.«123701_j34333968564745_1_alg».proof.Pre_finite_inputs
import proofs.«123701_j34333968564745_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

open Idealize.ShloMosaic

namespace Cert.FiniteInputs

open Cert.Pre_finite_inputs

/-- The pattern of +∞ denotes +∞. -/
theorem ofBits_inf : Ideal.ofBits .f32 0x7F800000#32 = (⊤ : EReal) := by
  simp [Ideal.ofBits, Ideal.ieee]

/-- An extended real whose absolute value compares below +∞ is a real. -/
theorem real_of_abs_lt_inf (x : EReal) (h : Ideal.cmp .olt (max x (-x)) (Ideal.ofBits .f32 0x7F800000#32) = 1#1) :
    ∃ y : ℝ, x = (y : EReal) := by
  rw [ofBits_inf] at h
  have hlt : max x (-x) < ⊤ := by
    by_contra hn
    simp [Ideal.cmp, hn] at h
  induction x using EReal.rec with
  | bot => simp at hlt
  | coe y => exact ⟨y, rfl⟩
  | top => simp at hlt

instance : Subsingleton S_.Idx := ⟨fun a b => funext fun d => d.elim0⟩

variable [Facts]

/-- Under the precondition the features, the weights, the bias and the edge weights have real entries. -/
theorem real_of_pre (a0 : FVec Ideal S50000x128 .f32) (a1 : FVec Ideal S128x256 .f32) (a2 a3 a4 : FVec Ideal S256 .f32)
    (a5 : FVec Ideal S800000 .f32) (a6 a7 : IVec S800000 32)
    (h : fn (F := Ideal) a0 a1 a2 a3 a4 a5 a6 a7 = fun _ => 1#1) :
    (∀ i, ∃ y : ℝ, a0 i = (y : EReal)) ∧ (∀ i, ∃ y : ℝ, a1 i = (y : EReal)) ∧ (∀ i, ∃ y : ℝ, a2 i = (y : EReal))
      ∧ (∀ i, ∃ y : ℝ, a5 i = (y : EReal)) := by
  have h0 := congrFun h ValueIdx.ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨fun i => real_of_abs_lt_inf (a0 i) (Host.reduce_andi_all _ _ _ _ _ h0' i),
    fun i => real_of_abs_lt_inf (a1 i) (Host.reduce_andi_all _ _ _ _ _ h1 i),
    fun i => real_of_abs_lt_inf (a2 i) (Host.reduce_andi_all _ _ _ _ _ h2 i),
    fun i => real_of_abs_lt_inf (a5 i) (Host.reduce_andi_all _ _ _ _ _ h5 i)⟩

end Cert.FiniteInputs

end
-- ==== Proof.LibRealClosure.lean ====
/-
  GENERAL LEMMAS: arrays of extended reals all of whose entries are (images of) reals stay so under the host
  operations that only move, multiply and add entries.
  • `sum_real`, `add_real`, `mul_real`: finite sums, sums and products of reals are real;
  • `scatterAdd_real`: an accumulating scatter of real updates into a real array is real, whatever the indices
    (each entry is the operand's entry plus a finite sum of update entries);
  • `mulf_real`, `gather_real`, `broadcastInDim_real`, `constant_zero_real`: an entrywise product, a gather, a
    broadcast of real arrays, and the zero scalar.
-/
import Idealize.ShloMosaic.PureOps.Ideal
import Idealize.ShloMosaic.PureOps.Ideal.Laws
import proofs.«123701_j34333968564745_1_alg».proof.Proof.LibRealImage

noncomputable section

open Idealize.ShloMosaic
open scoped BigOperators

namespace Cert.Lib.RealClosure

theorem sum_real {ι : Type*} (s : Finset ι) (f : ι → EReal) (hf : ∀ j, ∃ y : ℝ, f j = (y : EReal)) :
    ∃ y : ℝ, ∑ j ∈ s, f j = (y : EReal) := by
  choose f' hf' using hf
  exact ⟨∑ j ∈ s, f' j, by rw [Cert.Lib.RealImage.coe_sum]; exact Finset.sum_congr rfl fun j _ => hf' j⟩

theorem add_real (a b : EReal) (ha : ∃ y : ℝ, a = (y : EReal)) (hb : ∃ y : ℝ, b = (y : EReal)) : ∃ y : ℝ, a + b = (y : EReal) := by
  obtain ⟨a', rfl⟩ := ha; obtain ⟨b', rfl⟩ := hb; exact ⟨a' + b', (EReal.coe_add _ _).symm⟩

theorem mul_real (a b : EReal) (ha : ∃ y : ℝ, a = (y : EReal)) (hb : ∃ y : ℝ, b = (y : EReal)) : ∃ y : ℝ, a * b = (y : EReal) := by
  obtain ⟨a', rfl⟩ := ha; obtain ⟨b', rfl⟩ := hb; exact ⟨a' * b', (EReal.coe_mul _ _).symm⟩

/-- An accumulating scatter of real updates into a real array is real, whatever the indices. -/
theorem scatterAdd_real {s si su : Shape} (d : ScatterDims s si su) {w : ℕ} (x : FVec Ideal s .f32) (idx : IVec si w)
    (upd : FVec Ideal su .f32) (hx : ∀ i, ∃ y : ℝ, x i = (y : EReal)) (hu : ∀ j, ∃ y : ℝ, upd j = (y : EReal)) (i : s.Idx) :
    ∃ y : ℝ, Host.scatterAdd d x idx upd i = (y : EReal) := by
  simp only [Host.scatterAdd, Ideal.hostScatterAdd_def]
  unfold Ideal.hostScatterAdd
  exact add_real _ _ (hx i) (sum_real _ _ hu)

/-- A product of a gathered real array and a broadcast real array is real, entry by entry. -/
theorem mulf_real {s : Shape} (a b : FVec Ideal s .f32) (ha : ∀ j, ∃ y : ℝ, a j = (y : EReal)) (hb : ∀ j, ∃ y : ℝ, b j = (y : EReal))
    (j : s.Idx) : ∃ y : ℝ, mulf a b j = (y : EReal) :=
  mul_real _ _ (ha j) (hb j)

theorem gather_real {s si t : Shape} {w : ℕ} (d : GatherDims s si t) (x : FVec Ideal s .f32) (idx : IVec si w)
    (hx : ∀ i, ∃ y : ℝ, x i = (y : EReal)) (j : t.Idx) : ∃ y : ℝ, Host.gather d x idx j = (y : EReal) :=
  hx _

theorem broadcastInDim_real {s t : Shape} (dims : Fin s.rank → Fin t.rank) (h : s.BroadcastsInDim t dims) (x : FVec Ideal s .f32)
    (hx : ∀ i, ∃ y : ℝ, x i = (y : EReal)) (j : t.Idx) : ∃ y : ℝ, broadcastInDim t dims h x j = (y : EReal) :=
  hx _

theorem constant_zero_real (j : (⟨0, ![]⟩ : Shape).Idx) : ∃ y : ℝ, constant (F := Ideal) ⟨0, ![]⟩ .f32 0x00000000#32 j = (y : EReal) :=
  ⟨0, by show Ideal.ofBits .f32 0x00000000#32 = _; rw [Ideal.ofBits_zero_f32, EReal.coe_zero]⟩

end Cert.Lib.RealClosure

end
-- ==== Proof.AggregateReal.lean ====
/-
  The aggregated features of real inputs are real.

  An aggregated entry is the zero of the scattered-into array plus a finite sum of update entries, and an update
  entry is a feature entry (whichever row the edge's source index selects) times an edge weight.  Reals are closed
  under products and finite sums inside the extended reals, so with real features and real edge weights every
  aggregated entry is real — whatever the integer source and destination indices are.
-/
import proofs.«123701_j34333968564745_1_alg».proof.Proof.KernelHost
import proofs.«123701_j34333968564745_1_alg».proof.Proof.LibRealClosure

noncomputable section

open Idealize.ShloMosaic
open scoped BigOperators

namespace Cert.KernelIdeal.ValueLeg

open Cert.KernelIdeal Cert.KernelIdeal.Gen Cert.Lib.RealClosure

/-- With real features and real edge weights every aggregated entry is real. -/
theorem aggregate_real (x : Vec Ideal S50000x128 .f32) (ew : Vec Ideal S800000 .f32) (src dst : IVec S800000 32)
    (hx : ∀ i, ∃ y : ℝ, x i = (y : EReal)) (hw : ∀ i, ∃ y : ℝ, ew i = (y : EReal)) (i : S50000x128.Idx) :
    ∃ y : ℝ, aggregate (F := Ideal) x ew src dst i = (y : EReal) := by
  unfold aggregate
  exact scatterAdd_real _ _ _ _
    (broadcastInDim_real _ _ _ constant_zero_real)
    (mulf_real _ _ (gather_real _ _ _ hx)
      (broadcastInDim_real _ _ _ (broadcastInDim_real _ _ _ hw))) i

end Cert.KernelIdeal.ValueLeg

end
-- ==== Proof.Bridge.lean ====
/-
  The two programs compute the same array.

  Both aggregate the edge features by the same host operations (so the aggregated features A are one term), both
  form the rectified product h = max (A · W + b, 0), and both normalise h column by column — the kernel from the
  column sums and the column sums of squares (one pass), the reference from the mean and then the squared deviations
  (two passes).  Under the precondition the features, the weights, the bias and the edge weights are real, hence so
  are A and h, and on real entries the two normalisations agree (mean of squares minus squared mean is the mean
  squared deviation).  γ and β enter both sides the same way and need no finiteness.
-/
import proofs.«123701_j34333968564745_1_alg».proof.Defs
import proofs.«123701_j34333968564745_1_alg».proof.Proof.KernelValue
import proofs.«123701_j34333968564745_1_alg».proof.Proof.RefTerm
import proofs.«123701_j34333968564745_1_alg».proof.Proof.Finite
import proofs.«123701_j34333968564745_1_alg».proof.Proof.AggregateReal

noncomputable section

open Idealize.ShloMosaic Idealize.ShloMosaic.TcCoe Idealize.SL.Sem Idealize.ShloMosaic.ValueIdx
open scoped BigOperators

namespace Cert.Bridge

open Cert.BatchStat Cert.KernelIdeal.ValueLeg Cert.ReferenceIdeal.RefValue

/-- The two programs' aggregation is one function of the features, the edge weights and the two index arrays. -/
theorem agg_eq (x0 : Vec Ideal Cert.KernelIdeal.S50000x128 .f32) (x5 : Vec Ideal Cert.KernelIdeal.S800000 .f32) (x6 x7 : IVec Cert.KernelIdeal.S800000 32) :
    Cert.ReferenceIdeal.Read.val_main_v12 (F := Ideal) x0 x5 x6 x7 = aggregate (F := Ideal) x0 x5 x6 x7 := by
  unfold Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.ReferenceIdeal.Read.val_main_cst aggregate
  rfl

variable (m : (ℓ : Loc Cert.KernelIdeal.nD Cert.KernelIdeal.τ Cert.KernelIdeal.sig) → Buf (Elt Ideal) ℓ) (ρ : Dev Cert.KernelIdeal.nD → PrngReg)

/-- The reference's rectified product of the kernel's arguments is the kernel's. -/
theorem href_eq (c : Dev Cert.KernelIdeal.nD) :
    hRef (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = hKer m c := by
  unfold hRef hKer
  rw [agg_eq]

/-- Under the precondition the rectified product has real entries. -/
theorem hker_real [hPre : Cert.Pre_finite_inputs.Facts] (hpre : Cert.Pre_KernelIdeal m) (c : Dev Cert.KernelIdeal.nD) (r : Fin 50000) (q : Fin 256) :
    ∃ x : ℝ, hKer m c r q = (x : EReal) := by
  obtain ⟨h0, h1, h2, h5⟩ := Cert.FiniteInputs.real_of_pre _ _ _ _ _ _ _ _ (hpre c)
  unfold hKer
  exact reluRow_real _ _ _ (fun r k => aggregate_real _ _ _ _ h0 h5 _) (fun k q => h1 _) (fun q => h2 _) r q

/-- Entry by entry the reference's result on the kernel's arguments is the kernel's result array. -/
theorem result_eq [hPre : Cert.Pre_finite_inputs.Facts] (hpre : Cert.Pre_KernelIdeal m) (c : Dev Cert.KernelIdeal.nD) (r : Fin 50000) (q : Fin 256) :
    Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (ix2 r q)
      = Cert.KernelIdeal.Gen.W4 m ρ c (Proc.devRef .tc Cert.KernelIdeal.main_v30) (ix2 r q) := by
  rw [out_ref, kernel_entry m ρ c r q, href_eq m c]
  exact (outOnePass_eq_outTwoPass (hKer m c) _ _ (hker_real m hpre c) r q).symm

end Cert.Bridge

end
-- ==== Proof.lean ====
/-
  The claim: the three programs run and leave their arguments unchanged, the idealized kernel is the kernel's
  idealization (the ideal pass rewrote nothing), and at the ideal instance the idealized kernel and the idealized
  reference end with equal results.

  The kernel aggregates edge features on the host (gather, weight, scatter-add), then in a first pipelined region
  computes h = max (A · W + b, 0) row block by row block while accumulating the column sums S and the column sums of
  squares Q, forms mean = S / N and istd = rsqrt (Q / N − mean² + ε) on the host, and in a second region writes
  (h − mean) · istd · γ + β.  The reference aggregates the same way and normalises h with the two-pass variance
  (∑ (h − mean)²) / N.  Under the precondition every entry of h is real, and on reals the two variances agree, so the
  results agree entry by entry.
-/
import proofs.«123701_j34333968564745_1_alg».proof.Defs
import proofs.«123701_j34333968564745_1_alg».proof.Proof.Gen.Kernel
import proofs.«123701_j34333968564745_1_alg».proof.Proof.Gen.Kernel.Skeleton
import proofs.«123701_j34333968564745_1_alg».proof.Proof.Gen.Kernel.Launch
import proofs.«123701_j34333968564745_1_alg».proof.Proof.Gen.Kernel.Points
import proofs.«123701_j34333968564745_1_alg».proof.Proof.Gen.Kernel.Frame
import proofs.«123701_j34333968564745_1_alg».proof.Proof.Gen.KernelIdeal
import proofs.«123701_j34333968564745_1_alg».proof.Proof.Gen.KernelIdeal.Skeleton
import proofs.«123701_j34333968564745_1_alg».proof.Proof.Gen.KernelIdeal.Launch
import proofs.«123701_j34333968564745_1_alg».proof.Proof.Gen.KernelIdeal.Points
import proofs.«123701_j34333968564745_1_alg».proof.Proof.Gen.KernelIdeal.Frame
import proofs.«123701_j34333968564745_1_alg».proof.Proof.Gen.ReferenceIdeal
import proofs.«123701_j34333968564745_1_alg».proof.Proof.Gen.ReferenceIdeal.Run
import proofs.«123701_j34333968564745_1_alg».proof.Proof.Gen.ReferenceIdeal.Read
import proofs.«123701_j34333968564745_1_alg».proof.Proof.Gen.Pre_finite_inputs
import proofs.«123701_j34333968564745_1_alg».proof.Proof.KernelRun
import proofs.«123701_j34333968564745_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result array ends at what its second region leaves, the reference's at its
    composed term of arguments that agree with the kernel's; the two are equal entry by entry. -/
theorem algebraic : Cert.algebraic_KernelIdeal_ReferenceIdeal := by
  intro m ρ m' ρ' hpre hagree
  refine ⟨fun c => Cert.KernelIdeal.Gen.W4 m ρ c (Proc.devRef .tc Cert.KernelIdeal.main_v30), Cert.KernelIdeal.ValueLeg.run_named (F := Ideal) m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v42_eq, (hagree c).1, (hagree c).2.1, (hagree c).2.2.1, (hagree c).2.2.2.1, (hagree c).2.2.2.2.1,
    (hagree c).2.2.2.2.2.1, (hagree c).2.2.2.2.2.2.1, (hagree c).2.2.2.2.2.2.2]
  funext i
  obtain ⟨r, q, rfl⟩ : ∃ (r : Fin 50000) (q : Fin 256), i = ix2 r q := ⟨i 0, i 1, eq_ix2 i⟩
  exact Cert.Bridge.result_eq m ρ hpre c r q

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
